-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_3)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_3) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x128 : Shape := ⟨3, ![256, 2048, 128]⟩
abbrev S128x64 : Shape := ⟨2, ![128, 64]⟩
abbrev S64x1 : Shape := ⟨2, ![64, 1]⟩
abbrev S64 : Shape := ⟨1, ![64]⟩
abbrev S_ : Shape := ⟨0, ![]⟩

class Facts : Prop where
  bcast_S_S256x2048x128 : S_.BroadcastsInDim S256x2048x128 (![] : Fin 0 → Fin S256x2048x128.rank)
  reducesTo_S256x2048x128_S_d0_1_2 : S256x2048x128.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S256x2048x128 .f32) (main_arg1 : FVec F S128x64 .f32) (main_arg2 : FVec F S64x1 .f32) (main_arg3 : FVec F S64 .f32) : IVec S_ 1 :=
  let main_v0 : FVec F S256x2048x128 .f32 := Host.absf main_arg0
  let main_cst : FVec F S_ .f32 := constant S_ .f32 0x7F800000#32
  let main_v1 : FVec F S256x2048x128 .f32 := broadcastInDim S256x2048x128 ![] bcast_S_S256x2048x128 main_cst
  let main_v2 : IVec S256x2048x128 1 := cmpf .olt main_v0 main_v1
  let main_c : IVec S_ 1 := constantI S_ 1 1#1
  let main_v3 : IVec S_ 1 := (fun x v => Host.reduce IntOp.andi x v reducesTo_S256x2048x128_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S256x2048x128 : Shape := ⟨3, ![256, 2048, 128]⟩
abbrev S128x64 : Shape := ⟨2, ![128, 64]⟩
abbrev S64x1 : Shape := ⟨2, ![64, 1]⟩
abbrev S64 : Shape := ⟨1, ![64]⟩
abbrev S256x2048 : Shape := ⟨2, ![256, 2048]⟩
abbrev S256x1 : Shape := ⟨2, ![256, 1]⟩
abbrev S256x128 : Shape := ⟨2, ![256, 128]⟩
abbrev S32x256x128 : Shape := ⟨3, ![32, 256, 128]⟩
abbrev S32x256 : Shape := ⟨2, ![32, 256]⟩
abbrev S32x1 : Shape := ⟨2, ![32, 1]⟩
abbrev S32x128 : Shape := ⟨2, ![32, 128]⟩
abbrev S8192x128 : Shape := ⟨2, ![8192, 128]⟩
abbrev S8192x64 : Shape := ⟨2, ![8192, 64]⟩
abbrev S1x64 : Shape := ⟨2, ![1, 64]⟩
abbrev S32x256x64 : Shape := ⟨3, ![32, 256, 64]⟩
abbrev S1x1x64 : Shape := ⟨3, ![1, 1, 64]⟩
abbrev S32 : Shape := ⟨1, ![32]⟩
abbrev S32x256x1 : Shape := ⟨3, ![32, 256, 1]⟩
abbrev S256x2048x1 : Shape := ⟨3, ![256, 2048, 1]⟩

abbrev nBuf : Space → Nat
  | .hbm => 14
  | .vmem => 16
  | .smem => 0
  | _ => 0

abbrev bufTy : (tb : Table) → Fin (tcTables nBuf tb) → BufTy
  | .hbm, ⟨0, _⟩ => ⟨S256x2048x128, .f32⟩
  | .hbm, ⟨1, _⟩ => ⟨S128x64, .f32⟩
  | .hbm, ⟨2, _⟩ => ⟨S64x1, .f32⟩
  | .hbm, ⟨3, _⟩ => ⟨S64, .f32⟩
  | .hbm, ⟨4, _⟩ => ⟨S256x2048, .f32⟩
  | .hbm, ⟨5, _⟩ => ⟨S256x1, .f32⟩
  | .hbm, ⟨6, _⟩ => ⟨S256x1, .f32⟩
  | .hbm, ⟨7, _⟩ => ⟨S256x128, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S256x2048x1, .f32⟩
  | .local _ .vmem, ⟨0, _⟩ => ⟨S32x256x128, .f32⟩
  | .local _ .vmem, ⟨1, _⟩ => ⟨S32x256x128, .f32⟩
  | .local _ .vmem, ⟨2, _⟩ => ⟨S128x64, .f32⟩
  | .local _ .vmem, ⟨3, _⟩ => ⟨S64x1, .f32⟩
  | .local _ .vmem, ⟨4, _⟩ => ⟨S64, .f32⟩
  | .local _ .vmem, ⟨5, _⟩ => ⟨S32x256, .f32⟩
  | .local _ .vmem, ⟨6, _⟩ => ⟨S32x256, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x128, .f32⟩
  | .local _ .vmem, ⟨12, _⟩ => ⟨S32x128, .f32⟩
  | .local _ .vmem, ⟨13, _⟩ => ⟨S32x1, .f32⟩
  | .local _ .vmem, ⟨14, _⟩ => ⟨S32x1, .f32⟩
  | .local _ .vmem, ⟨15, _⟩ => ⟨S32x128, .f32⟩
  | _, _ => ⟨S256x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_26 : BitVec 32 := 0#32
  let v55 : BitVec 1 := Scalar.cmpi .ne v54 c0_i32_26
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x256x128_S32x256x128_0_0_0 : ∀ a, (![0, 0, 0] : Fin 3 → Nat) a + S32x256x128.size a ≤ S32x256x128.size a
  h_S32x256x128 : 0 < S32x256x128.numel
  bitsLt_bf16_f32 : FTy.bits .bf16 < FTy.bits .f32
  shapeCasts_S32x256x128_S8192x128 : S32x256x128.ShapeCasts S8192x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  shapeCasts_S8192x64_S32x256x64 : S8192x64.ShapeCasts S32x256x64
  inb_S64x1_S64x1_0_0 : ∀ a, (![0, 0] : Fin 2 → Nat) a + S64x1.size a ≤ S64x1.size a
  h_S64x1 : 0 < S64x1.numel
  shapeCasts_S64x1_S64 : S64x1.ShapeCasts S64
  shapeCasts_S64_S1x1x64 : S64.ShapeCasts S1x1x64
  broadcasts_S1x1x64_S32x256x64 : S1x1x64.Broadcasts S32x256x64
  reduces_S32x256x64_S32x256 : S32x256x64.Reduces [2] S32x256
  inb_S32x256_S32x256_0_0 : ∀ a, (![0, 0] : Fin 2 → Nat) a + S32x256.size a ≤ S32x256.size a
  h_S32x256 : 0 < S32x256.numel
  reduces_S32x256_S32 : S32x256.Reduces [1] S32
  shapeCasts_S32_S32x1 : S32.ShapeCasts S32x1
  broadcasts_S32x1_S32x256 : S32x1.Broadcasts S32x256
  shapeCasts_S32x256_S32x256x1 : S32x256.ShapeCasts S32x256x1
  broadcasts_S32x256x1_S32x256x128 : S32x256x1.Broadcasts S32x256x128
  reduces_S32x256x128_S32x128 : S32x256x128.Reduces [1] S32x128
  broadcasts_S32x1_S32x128 : S32x1.Broadcasts S32x128
  bcast_S256x1_S256x2048_0_1 : S256x1.BroadcastsInDim S256x2048 (![0, 1] : Fin 2 → Fin S256x2048.rank)
  bcast_S256x2048_S256x2048x1_0_1 : S256x2048.BroadcastsInDim S256x2048x1 (![0, 1] : Fin 2 → Fin S256x2048x1.rank)
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x128.size a ≤ S256x2048x128.size a
  hwx0_0 : ∀ i : grid0.Coords, EltTy.bits .f32 = 32 ∨ (Rect.block (s := S256x2048x128) S32x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S256x2048.size a
  hwx0_4 : ∀ i : grid0.Coords, EltTy.bits .f32 = 32 ∨ (Rect.block (s := S256x2048) S32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S256x1.size a
  hwx0_5 : ∀ i : grid0.Coords, EltTy.bits .f32 = 32 ∨ (Rect.block (s := S256x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S256x1.size a
  hwx0_6 : ∀ i : grid0.Coords, EltTy.bits .f32 = 32 ∨ (Rect.block (s := S256x1) S32x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S256x128.size a
  hwx0_7 : ∀ i : grid0.Coords, EltTy.bits .f32 = 32 ∨ (Rect.block (s := S256x128) S32x128.size (cc0_transform_7 i) (hinb0_7 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_arg0) S32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S32x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S32x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S32x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S32x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S256x2048x128 : Shape := ⟨3, ![256, 2048, 128]⟩
abbrev S128x64 : Shape := ⟨2, ![128, 64]⟩
abbrev S64x1 : Shape := ⟨2, ![64, 1]⟩
abbrev S64 : Shape := ⟨1, ![64]⟩
abbrev S256x2048x64 : Shape := ⟨3, ![256, 2048, 64]⟩
abbrev S1x1x64 : Shape := ⟨3, ![1, 1, 64]⟩
abbrev S256x2048x1 : Shape := ⟨3, ![256, 2048, 1]⟩
abbrev S_ : Shape := ⟨0, ![]⟩
abbrev S256x1 : Shape := ⟨2, ![256, 1]⟩
abbrev S256x1x1 : Shape := ⟨3, ![256, 1, 1]⟩
abbrev S256x128 : Shape := ⟨2, ![256, 128]⟩

abbrev nBuf : Space → Nat
  | .hbm => 28
  | .vmem => 0
  | .smem => 0
  | _ => 0

abbrev bufTy : (tb : Table) → Fin (tcTables nBuf tb) → BufTy
  | .hbm, ⟨0, _⟩ => ⟨S256x2048x128, .f32⟩
  | .hbm, ⟨1, _⟩ => ⟨S128x64, .f32⟩
  | .hbm, ⟨2, _⟩ => ⟨S64x1, .f32⟩
  | .hbm, ⟨3, _⟩ => ⟨S64, .f32⟩
  | .hbm, ⟨4, _⟩ => ⟨S256x2048x64, .f32⟩
  | .hbm, ⟨5, _⟩ => ⟨S1x1x64, .f32⟩
  | .hbm, ⟨6, _⟩ => ⟨S256x2048x64, .f32⟩
  | .hbm, ⟨7, _⟩ => ⟨S256x2048x64, .f32⟩
  | .hbm, ⟨8, _⟩ => ⟨S256x2048x64, .f32⟩
  | .hbm, ⟨9, _⟩ => ⟨S256x2048x1, .f32⟩
  | .hbm, ⟨10, _⟩ => ⟨S_, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1x1, .f32⟩
  | .hbm, ⟨16, _⟩ => ⟨S256x2048x1, .f32⟩
  | .hbm, ⟨17, _⟩ => ⟨S256x2048x1, .f32⟩
  | .hbm, ⟨18, _⟩ => ⟨S256x2048x1, .f32⟩
  | .hbm, ⟨19, _⟩ => ⟨S_, .f32⟩
  | .hbm, ⟨20, _⟩ => ⟨S256x1, .f32⟩
  | .hbm, ⟨21, _⟩ => ⟨S256x1x1, .f32⟩
  | .hbm, ⟨22, _⟩ => ⟨S256x2048x1, .f32⟩
  | .hbm, ⟨23, _⟩ => ⟨S256x2048x1, .f32⟩
  | .hbm, ⟨24, _⟩ => ⟨S256x2048x128, .f32⟩
  | .hbm, ⟨25, _⟩ => ⟨S256x2048x128, .f32⟩
  | .hbm, ⟨26, _⟩ => ⟨S_, .f32⟩
  | .hbm, ⟨27, _⟩ => ⟨S256x128, .f32⟩
  | _, _ => ⟨S256x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S256x2048x64_0_1_2 : S1x1x64.BroadcastsInDim S256x2048x64 (![0, 1, 2] : Fin 3 → Fin S256x2048x64.rank)
  reducesTo_S256x2048x1_S256x1_d1 : S256x2048x1.ReducesTo [1] S256x1
  h_S_ : 0 < S_.numel
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x2048x1_0_1_2 : S256x1x1.BroadcastsInDim S256x2048x1 (![0, 1, 2] : Fin 3 → Fin S256x2048x1.rank)
  bcast_S256x2048x1_S256x2048x128_0_1_2 : S256x2048x1.BroadcastsInDim S256x2048x128 (![0, 1, 2] : Fin 3 → Fin S256x2048x128.rank)
  reducesTo_S256x2048x128_S256x128_d1 : S256x2048x128.ReducesTo [1] S256x128
  dot_S256x2048x128_S128x64_S256x2048x64_2_0_01_1_n_n_wf : DotDims.WF S256x2048x128 S128x64 S256x2048x64 [2] [0] [0, 1] [1] [] []
  dot_S256x2048x64_S64x1_S256x2048x1_2_0_01_1_n_n_wf : DotDims.WF S256x2048x64 S64x1 S256x2048x1 [2] [0] [0, 1] [1] [] []

variable [Facts₀]

def dot_S256x2048x128_S128x64_S256x2048x64_2_0_01_1_n_n : DotDims S256x2048x128 S128x64 S256x2048x64 where
  lhsContracting := [2]
  rhsContracting := [0]
  lhsNonContracting := [0, 1]
  rhsNonContracting := [1]
  lhsBatch := []
  rhsBatch := []
  wf := dot_S256x2048x128_S128x64_S256x2048x64_2_0_01_1_n_n_wf
def dot_S256x2048x64_S64x1_S256x2048x1_2_0_01_1_n_n : DotDims S256x2048x64 S64x1 S256x2048x1 where
  lhsContracting := [2]
  rhsContracting := [0]
  lhsNonContracting := [0, 1]
  rhsNonContracting := [1]
  lhsBatch := []
  rhsBatch := []
  wf := dot_S256x2048x64_S64x1_S256x2048x1_2_0_01_1_n_n_wf

class Facts : Prop extends Facts₀ where

variable [Facts]
-- ==== Proof.KernelPieces.lean ====
/-
  What one grid point stores, as values.  A point is of one of three kinds: the first tile of a row block (the
  carried maximum, sum and weighted sum are first reset to `-∞`, zero and zero), a tile in the middle, or the last
  tile (which also stores the three small outputs).  In every kind the body stores the tile of scores and the three
  updated statistics, each one whole-buffer store whose value is a fixed arithmetic expression of the blocks loaded
  and of the statistics found: this file names those expressions (`scoreT`, `mNew`, `lNew`, `aNew`, `ctxT`) and
  reads each buffer's final contents as the one it holds, at any number format.
-/
import proofs.«103353_j63419487093403_2_alg».proof.Defs
import proofs.«103353_j63419487093403_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The tile of scores the body computes from the four input blocks. -/
def scoreT (x0 : Vec F S32x256x128 .f32) (x1 : Vec F S128x64 .f32) (x2 : Vec F S64x1 .f32) (x3 : Vec F S64 .f32) : FVec F S32x256 .f32 := k0_pay8 x0 x1 x3 x2

/-- The running maximum the body leaves: the old one against the tile's row maxima. -/
def mNew (x0 : Vec F S32x256x128 .f32) (x1 : Vec F S128x64 .f32) (x2 : Vec F S64x1 .f32) (x3 : Vec F S64 .f32) (xs0 : Vec F S32x1 .f32) : FVec F S32x1 .f32 := k0_pay3 (k0_pay9 x0 x1 x3 x2 xs0)

/-- The running sum of exponentials the body leaves. -/
def lNew (x0 : Vec F S32x256x128 .f32) (x1 : Vec F S128x64 .f32) (x2 : Vec F S64x1 .f32) (x3 : Vec F S64 .f32) (xs0 xs1 : Vec F S32x1 .f32) : FVec F S32x1 .f32 := k0_pay1 (k0_pay12 x0 x1 x3 x2 xs0 xs1)

/-- The running weighted sum of the rows' vectors the body leaves. -/
def aNew (x0 : Vec F S32x256x128 .f32) (x1 : Vec F S128x64 .f32) (x2 : Vec F S64x1 .f32) (x3 : Vec F S64 .f32) (xs0 : Vec F S32x1 .f32) (xs2 : Vec F S32x128 .f32) : FVec F S32x128 .f32 :=
  k0_pay2 x0 (k0_pay10 x0 x1 x3 x2 xs0) (k0_pay11 x0 x1 x3 x2 xs0) xs2

/-- The context the last tile stores: the weighted sum over the sum of exponentials. -/
def ctxT (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) : FVec F S32x128 .f32 :=
  k0_pay4 (aNew x0 x1 x2 x3 xs0 xs2) (lNew x0 x1 x2 x3 xs0 xs1)

/-- What the first tile of a row starts from: the maximum at `-∞`, the two sums at zero. -/
abbrev m0 : FVec F S32x1 .f32 := k0_pay5
abbrev l0 : FVec F S32x1 .f32 := k0_pay6
abbrev a0 : FVec F S32x128 .f32 := k0_pay7

theorem out_A_4 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : cond0_0 i) (hc1 : ¬cond0_1 i) (x0 : Vec F S32x256x128 .f32) (x1 : Vec F S128x64 .f32) (x2 : Vec F S64x1 .f32) (x3 : Vec F S64 .f32) :
    out0_A_4 c i arg2 harg2 arg3 harg3 arg4 harg4 arg5 harg5 arg6 harg6 arg7 harg7 arg8 harg8 arg9 harg9 arg10 harg10 arg11 harg11 arg12 harg12 hc0 hc1 x0 x1 x2 x3 = scoreT x0 x1 x2 x3 := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  first
    | rw [View.canon_unit_zero hz2]
    | rw [View.canon_cons_unit_zero (S := S32x256) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_A_0 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : cond0_0 i) (hc1 : ¬cond0_1 i) (x0 : Vec F S32x256x128 .f32) (x1 : Vec F S128x64 .f32) (x2 : Vec F S64x1 .f32) (x3 : Vec F S64 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 = mNew x0 x1 x2 x3 m0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  first
    | rw [View.canon_unit_zero hz2]
    | rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_A_1 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : cond0_0 i) (hc1 : ¬cond0_1 i) (x0 : Vec F S32x256x128 .f32) (x1 : Vec F S128x64 .f32) (x2 : Vec F S64x1 .f32) (x3 : Vec F S64 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 = lNew x0 x1 x2 x3 m0 l0 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  first
    | rw [View.canon_unit_zero hz2]
    | rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_A_2 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : cond0_0 i) (hc1 : ¬cond0_1 i) (x0 : Vec F S32x256x128 .f32) (x1 : Vec F S128x64 .f32) (x2 : Vec F S64x1 .f32) (x3 : Vec F S64 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 = aNew x0 x1 x2 x3 m0 a0 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  first
    | rw [View.canon_unit_zero hz2]
    | rw [View.canon_cons_unit_zero (S := S32x128) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem out_B_4 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : ¬cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    out0_B_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 = scoreT x0 x1 x2 x3 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  sl_unfold_words
  first
    | rw [View.canon_unit_zero hz2]
    | rw [View.canon_cons_unit_zero (S := S32x256) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_B_0 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : ¬cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 = mNew x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  sl_unfold_words
  first
    | rw [View.canon_unit_zero hz2]
    | rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_B_1 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : ¬cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 = lNew x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  sl_unfold_words
  first
    | rw [View.canon_unit_zero hz2]
    | rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_B_2 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : ¬cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 = aNew x0 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  sl_unfold_words
  first
    | rw [View.canon_unit_zero hz2]
    | rw [View.canon_cons_unit_zero (S := S32x128) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem out_C_4 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    out0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 = scoreT x0 x1 x2 x3 := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  first
    | rw [View.canon_unit_zero hz2]
    | rw [View.canon_cons_unit_zero (S := S32x256) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem out_C_5 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 = mNew x0 x1 x2 x3 xs0 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  first
    | rw [View.canon_unit_zero hz2]
    | rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem out_C_6 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 xs0 xs1 xs2 = lNew x0 x1 x2 x3 xs0 xs1 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  first
    | rw [View.canon_unit_zero hz2]
    | rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem out_C_7 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 xs0 xs1 xs2 = ctxT x0 x1 x2 x3 xs0 xs1 xs2 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  first
    | rw [View.canon_unit_zero hz2]
    | rw [View.canon_cons_unit_zero (S := S32x128) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_C_0 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 = mNew x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  first
    | rw [View.canon_unit_zero hz2]
    | rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_C_1 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 = lNew x0 x1 x2 x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  first
    | rw [View.canon_unit_zero hz2]
    | rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

theorem scr_C_2 (c : Dev nD) (i : grid0.Coords) (arg2 : Memref sig .tc .vmem S32x256x128 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S64 .f32) (harg5 : arg5.IsWhole) (arg6 : Memref sig .tc .vmem S32x256 .f32) (harg6 : arg6.IsWhole) (arg7 : Memref sig .tc .vmem S32x1 .f32) (harg7 : arg7.IsWhole) (arg8 : Memref sig .tc .vmem S32x1 .f32) (harg8 : arg8.IsWhole) (arg9 : Memref sig .tc .vmem S32x128 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x128 .f32) (harg12 : arg12.IsWhole) (hc0 : ¬cond0_0 i) (hc1 : cond0_1 i) (x0 : Vec F S32x256x128 .f32) (x1 : Vec F S128x64 .f32) (x2 : Vec F S64x1 .f32) (x3 : Vec F S64 .f32) (xs0 : Vec F S32x1 .f32) (xs1 : Vec F S32x1 .f32) (xs2 : Vec F S32x128 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 = aNew x0 x1 x2 x3 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  first
    | rw [View.canon_unit_zero hz2]
    | rw [View.canon_cons_unit_zero (S := S32x128) hz2]
  simp only [View.readAt_eq_ld, harg2.read_unread, harg3.read_unread, harg4.read_unread, harg5.read_unread, harg10.read_unread, harg11.read_unread, harg12.read_unread, View.ld_unit_zero (S := S32x256x128) hz3, View.ld_unit_zero (S := S128x64) hz2, View.ld_unit_zero (S := S64) hz1, View.ld_unit_zero (S := S64x1) hz2, View.ld_unit_zero (S := S32x1) hz2, View.ld_unit_zero (S := S32x128) hz2, View.readCov_unit_zero (S := S32x1) _ hz2, View.readCov_unit_zero (S := S32x128) _ hz2]
  try rfl

end Cert.KernelIdeal.Attn

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibLaneFolds.lean ====
/-
  Reductions along the lanes of an `[a, b]` array, read at a row, on the extended reals, generic in the extents:
  * `laneMax_apply` / `laneSum_apply`: a vector unit's maximum and sum along the lanes, at row `p`, are the fold of
    `max` from the starting value, and the sum, over the row's `b` entries;
  * `hostLaneMax_apply`: the host's one-operand reduction with a maximum body along the same axis is the same fold,
    started at the initial value's one element.
  A fold of `max` is taken in any order (it is commutative and associative), so neither side's traversal order matters.
-/
import Idealize.ShloMosaic.Lib.ValueIdx
import Idealize.ShloMosaic.Lib.Pipeline.Value
import Idealize.ShloMosaic.PureOps.Ideal.Laws

noncomputable section

namespace Cert.LaneFolds

open Idealize.ShloMosaic Idealize.ShloMosaic.ValueIdx
open scoped BigOperators

/-- The maximum along the lanes, at row `p`: the fold of `max` from the starting value over the row's entries. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg (fun f : Fin b → EReal => (Finset.univ : Finset (Fin b)).fold max (Ideal.ofBits .f32 acc) f)
      (funext fun k => congrArg src (funext fun d => Fin.ext (by
        match d with
        | ⟨0, _⟩ => rfl
        | ⟨1, _⟩ => rfl))))

/-- The sum along the lanes, at row `p`: the sum of the row's entries. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's reduction with a maximum body along the lanes, at row `p`: the same fold, from the initial value. -/
theorem hostLaneMax_apply {a b : ℕ} {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (fun f : Fin b → EReal => (Finset.univ : Finset (Fin b)).fold max (init (Shape.Idx.first hu)) f)
      (funext fun k => congrArg x (funext fun d => Fin.ext (by
        match d with
        | ⟨0, _⟩ => rfl
        | ⟨1, _⟩ => rfl))))

end Cert.LaneFolds

end
-- ==== Proof.LibLaneLayout.lean ====
/-
  Three layout operations read at an index, for a per-lane vector used against a rank-3 array, and the vector unit's
  one-operand functions read at an index on the extended reals:
  * a vector of `c` entries cast to a `[1, 1, c]` array reads the operand at the lane's own entry;
  * a `[1, 1, c]` array broadcast to `[a, b, c]` reads its one line at the lane;
  * an `[a, b, 1]` array broadcast to `[a, b, c]` reads its entry at the first two coordinates, whatever the lane.
-/
import Idealize.ShloMosaic.Lib.Pipeline.Value
import Idealize.ShloMosaic.Lib.ValueIdx

namespace Cert.LaneLayout

open Idealize.ShloMosaic Idealize.ShloMosaic.ValueIdx

variable {α : Type}

/-- A `[c]` array cast to `[1, 1, c]` reads, at `(u, v, q)`, the operand at `q`: the two indices have the same
    row-major position `q`. -/
theorem shapeCast_c_11c_apply {c : ℕ} (x : (⟨1, ![c]⟩ : Shape).Idx → α) (h : (⟨1, ![c]⟩ : Shape).ShapeCasts ⟨3, ![1, 1, c]⟩)
    (u v : Fin 1) (q : Fin c) : shapeCast ⟨3, ![1, 1, c]⟩ x h (ix3 u v q) = x (ix1 q) :=
  shapeCast_apply x h _ _ (by
    have hu : u.val = 0 := by omega
    have hv : v.val = 0 := by omega
    rw [Shape.rowMajor_val_three, Shape.rowMajor_val_one]
    show q.val = (u.val * 1 + v.val) * c + q.val
    rw [hu, hv]; simp)

/-- A `[1, 1, c]` array broadcast to `[a, b, c]` reads, at `(p, d, q)`, its one line at `q`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (d : Fin b) (q : Fin c) :
    broadcastTo ⟨3, ![a, b, c]⟩ v h (ix3 p d q) = v (ix3 (0 : Fin 1) (0 : Fin 1) q) := by
  refine broadcastTo_apply v h (ix3 p d q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- An `[a, b, 1]` array broadcast to `[a, b, c]` reads, at `(p, d, q)`, its entry at `(p, d)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (d : Fin b) (q : Fin c) :
    broadcastTo ⟨3, ![a, b, c]⟩ v h (ix3 p d q) = v (ix3 p d (0 : Fin 1)) := by
  refine broadcastTo_apply v h (ix3 p d q) (ix3 p d (0 : Fin 1)) fun ax => ?_
  match ax with
  | ⟨0, _⟩ =>
    show p.val = if a = 1 then 0 else p.val
    split
    · have := p.isLt; omega
    · rfl
  | ⟨1, _⟩ =>
    show d.val = if b = 1 then 0 else d.val
    split
    · have := d.isLt; omega
    · rfl
  | ⟨2, _⟩ => rfl

/-! ## The vector unit's one-operand functions at an index -/

section Pointwise
variable {s : Shape} {φ : FTy}

theorem exp_apply (a : FVec Ideal s φ) (i : s.Idx) : exp a i = Ideal.exp (a i) := rfl
theorem sqrt_apply (a : FVec Ideal s φ) (i : s.Idx) : sqrt a i = Ideal.sqrt (a i) := rfl
theorem cos_apply (a : FVec Ideal s φ) (i : s.Idx) : cos a i = Ideal.cos (a i) := rfl
theorem sin_apply (a : FVec Ideal s φ) (i : s.Idx) : sin a i = Ideal.sin (a i) := rfl

end Pointwise

end Cert.LaneLayout
-- ==== Proof.LibFlatten.lean ====
/-
  Four re-layouts read at an index given by coordinates, generic in the extents:
  * merging the two leading axes of an `[a, b, c]` array into one of length `a · b`, and splitting them again: entry
    `(r, q, k)` and entry `(r · b + q, k)` are the same row-major position;
  * an `[a, 1]` column read as a vector of `a` entries;
  * an `[a, b]` array with a trailing unit axis appended.
-/
import Idealize.ShloMosaic.Lib.Pipeline.Value
import Idealize.ShloMosaic.Lib.ValueIdx

namespace Cert.LibFlatten

open Idealize.ShloMosaic Idealize.ShloMosaic.ValueIdx

variable {α : Type}

/-- `[a, b, c]` read as `[n, c]` with `n = a · b`: row `p = r · b + q` is the pair `(r, q)`. -/
theorem merge_apply {a b c n : ℕ} (x : (⟨3, ![a, b, c]⟩ : Shape).Idx → α)
    (h : (⟨3, ![a, b, c]⟩ : Shape).ShapeCasts ⟨2, ![n, c]⟩) (r : Fin a) (q : Fin b) (k : Fin c) (p : Fin n)
    (hp : p.val = r.val * b + q.val) : shapeCast ⟨2, ![n, c]⟩ x h (ix2 p k) = x (ix3 r q k) :=
  shapeCast_apply x h _ _ (by
    rw [Shape.rowMajor_val_three, Shape.rowMajor_val_two]
    show (r.val * b + q.val) * c + k.val = p.val * c + k.val
    rw [hp])

/-- `[n, c]` read as `[a, b, c]` with `n = a · b`: entry `(r, q, k)` is row `r · b + q`. -/
theorem split_apply {a b c n : ℕ} (y : (⟨2, ![n, c]⟩ : Shape).Idx → α)
    (h : (⟨2, ![n, c]⟩ : Shape).ShapeCasts ⟨3, ![a, b, c]⟩) (r : Fin a) (q : Fin b) (k : Fin c) (p : Fin n)
    (hp : p.val = r.val * b + q.val) : shapeCast ⟨3, ![a, b, c]⟩ y h (ix3 r q k) = y (ix2 p k) :=
  shapeCast_apply y h _ _ (by
    rw [Shape.rowMajor_val_three, Shape.rowMajor_val_two]
    show p.val * c + k.val = (r.val * b + q.val) * c + k.val
    rw [hp])

/-- An `[a, 1]` column read as a vector: entry `p` is the column's row `p`. -/
theorem column_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- An `[a, b]` array with a trailing unit axis appended: entry `(p, q, u)` is entry `(p, q)`. -/
theorem unitLast_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu]; omega)

end Cert.LibFlatten
-- ==== Proof.LibStreamingSoftmax.lean ====
/-
  The streaming ("online") form of the two statistics a softmax needs, over the extended reals.

  A row of logits is met one tile at a time. The state is a pair `(m, l)`, started at `(⊥, 0)`; a tile `v` (a finite
  family of extended reals, none of them `⊤`; an entry `⊥` is a column that does not count) moves it to

      m' = max m (sup v),      l' = l * exp (m - m') + ∑ j, exp (v j - m').

  If the first tile has a real entry, then after all the tiles `m` is the supremum `M` of every entry met, `M` is a
  real number, and `l = ∑ tiles, ∑ j, exp (v j - M)`: the running sum, rescaled by `exp (m - m')` each time the
  maximum moves, is the sum of the exponentials shifted by the FINAL maximum. An entry `⊥` adds `exp ⊥ = 0` and
  never moves the maximum, so masked columns are neutral for both statistics.

  The proof goes through the reals: for `x ≠ ⊤` and a real `a`, `exp (x - a)` is the real `w x a` (zero at `⊥`,
  `Real.exp (x - a)` otherwise), and `w x a * Real.exp (a - a') = w x a'` is `Real.exp_add`; the sums are finite
  sums of reals, where multiplication distributes.
-/
import Idealize.ShloMosaic.PureOps.Ideal

noncomputable section

namespace Idealize.ShloMosaic.StreamingSoftmax

open Idealize.ShloMosaic

variable {ι : Type} [Fintype ι]

/-- One tile's move of the state `(m, l)`. -/
def step (s : EReal × EReal) (v : ι → EReal) : EReal × EReal :=
  (max s.1 (Finset.univ.sup v),
    s.2 * Ideal.exp (s.1 - max s.1 (Finset.univ.sup v)) + ∑ j, Ideal.exp (v j - max s.1 (Finset.univ.sup v)))

/-- The supremum of every entry of the tiles of `P`. -/
def supAll (P : List (ι → EReal)) : EReal := (P.map fun v => Finset.univ.sup v).foldl max ⊥

/-- The sum over the tiles of `P` of the exponentials shifted by `M`. -/
def sumAll (P : List (ι → EReal)) (M : EReal) : EReal := (P.map fun v => ∑ j, Ideal.exp (v j - M)).sum

/-- `exp (x - a)` as a real number, for `x` a real or `⊥`. -/
def w (x : EReal) (a : ℝ) : ℝ := if x = ⊥ then 0 else Real.exp (x.toReal - a)

theorem exp_sub_coe {x : EReal} (hx : x ≠ ⊤) (a : ℝ) : Ideal.exp (x - (a : EReal)) = ((w x a : ℝ) : EReal) := by
  induction x using EReal.rec with
  | bot => simp [w]
  | coe r =>
    have h : ((r : ℝ) : EReal) ≠ ⊥ := EReal.coe_ne_bot r
    rw [← EReal.coe_sub, Ideal.exp_coe, w, if_neg h, EReal.toReal_coe]
  | top => exact absurd rfl hx

theorem w_mul_exp (x : EReal) (a a' : ℝ) : w x a * Real.exp (a - a') = w x a' := by
  unfold w
  split
  · simp
  · rw [← Real.exp_add]; congr 1; ring

theorem w_nonneg (x : EReal) (a : ℝ) : 0 ≤ w x a := by
  unfold w; split
  · exact le_rfl
  · exact (Real.exp_pos _).le

/-! ## Finite sums of coerced reals -/

theorem coe_finset_sum {α : Type} (s : Finset α) (f : α → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A tile's shifted sum is a real number. -/
theorem tile_sum_coe {v : ι → EReal} (hv : ∀ j, v j ≠ ⊤) (a : ℝ) :
    ∑ j, Ideal.exp (v j - (a : EReal)) = ((∑ j, w (v j) a : ℝ) : EReal) := by
  rw [coe_finset_sum]
  exact Finset.sum_congr rfl fun j _ => exp_sub_coe (hv j) a

/-- The sum over the tiles of `P` of the shifted exponentials, in the reals. -/
def sumR (P : List (ι → EReal)) (a : ℝ) : ℝ := (P.map fun v => ∑ j, w (v j) a).sum

theorem sumAll_coe (P : List (ι → EReal)) (hP : ∀ v ∈ P, ∀ j, v j ≠ ⊤) (a : ℝ) :
    sumAll P (a : EReal) = ((sumR P a : ℝ) : EReal) := by
  induction P with
  | nil => simp [sumAll, sumR]
  | cons v P ih =>
    have h1 := tile_sum_coe (hP v (List.mem_cons.mpr (Or.inl rfl))) a
    have h2 := ih fun u hu => hP u (List.mem_cons.mpr (Or.inr hu))
    simp only [sumAll, sumR, List.map_cons, List.sum_cons] at h2 ⊢
    rw [h1, h2, EReal.coe_add]

/-- Moving the shift from `a` to `a'` multiplies every term, hence the sum, by `exp (a - a')`. -/
theorem sumR_mul (P : List (ι → EReal)) (a a' : ℝ) : sumR P a * Real.exp (a - a') = sumR P a' := by
  induction P with
  | nil => simp [sumR]
  | cons v P ih =>
    simp only [sumR, List.map_cons, List.sum_cons] at ih ⊢
    rw [add_mul, ih, Finset.sum_mul]
    congr 1
    exact Finset.sum_congr rfl fun j _ => w_mul_exp (v j) a a'

/-! ## The maximum -/

theorem sup_ne_top {v : ι → EReal} (hv : ∀ j, v j ≠ ⊤) : Finset.univ.sup v ≠ ⊤ := by
  have h : Finset.univ.sup v < ⊤ :=
    (Finset.sup_lt_iff bot_lt_top).mpr fun j _ => lt_top_iff_ne_top.mpr (hv j)
  exact h.ne

theorem max_coe_real (a : ℝ) {y : EReal} (hy : y ≠ ⊤) : ∃ a' : ℝ, max (a : EReal) y = a' := by
  induction y using EReal.rec with
  | bot => exact ⟨a, max_eq_left bot_le⟩
  | coe r => exact ⟨max a r, (EReal.coe_strictMono.monotone.map_max (a := a) (b := r)).symm⟩
  | top => exact absurd rfl hy

theorem supAll_append_singleton (P : List (ι → EReal)) (v : ι → EReal) :
    supAll (P ++ [v]) = max (supAll P) (Finset.univ.sup v) := by
  simp [supAll, List.foldl_append]

theorem sumAll_append_singleton (P : List (ι → EReal)) (v : ι → EReal) (M : EReal) :
    sumAll (P ++ [v]) M = sumAll P M + ∑ j, Ideal.exp (v j - M) := by
  simp [sumAll, List.sum_append]

/-! ## One tile, then all of them -/

/-- One tile keeps the invariant: from the supremum and the shifted sum of the tiles met so far (the supremum a
    real) to those of the tiles with the new one. -/
theorem step_eq (P : List (ι → EReal)) (v : ι → EReal) (a : ℝ) (hPa : supAll P = (a : EReal))
    (hP : ∀ u ∈ P, ∀ j, u j ≠ ⊤) (hv : ∀ j, v j ≠ ⊤) :
    step (supAll P, sumAll P (supAll P)) v = (supAll (P ++ [v]), sumAll (P ++ [v]) (supAll (P ++ [v]))) := by
  obtain ⟨a', ha'⟩ := max_coe_real a (sup_ne_top hv)
  rw [supAll_append_singleton, sumAll_append_singleton, hPa]
  unfold step
  simp only
  rw [ha', sumAll_coe P hP a, sumAll_coe P hP a', ← EReal.coe_sub, Ideal.exp_coe, ← EReal.coe_mul, sumR_mul]

theorem foldl_step (L : List (ι → EReal)) : ∀ (P : List (ι → EReal)) (a : ℝ), supAll P = (a : EReal) →
    (∀ u ∈ P, ∀ j, u j ≠ ⊤) → (∀ u ∈ L, ∀ j, u j ≠ ⊤) →
    L.foldl step (supAll P, sumAll P (supAll P)) = (supAll (P ++ L), sumAll (P ++ L) (supAll (P ++ L)))
      ∧ ∃ a' : ℝ, supAll (P ++ L) = a' := by
  induction L with
  | nil => intro P a hPa _ _; simpa using ⟨a, hPa⟩
  | cons v L ih =>
    intro P a hPa hP hL
    have hv := hL v (List.mem_cons.mpr (Or.inl rfl))
    have hL' : ∀ u ∈ L, ∀ j, u j ≠ ⊤ := fun u hu => hL u (List.mem_cons.mpr (Or.inr hu))
    obtain ⟨a', ha'⟩ := max_coe_real a (sup_ne_top hv)
    have hPv : supAll (P ++ [v]) = (a' : EReal) := by rw [supAll_append_singleton, hPa, ha']
    have hP' : ∀ u ∈ P ++ [v], ∀ j, u j ≠ ⊤ := by
      intro u hu
      rcases List.mem_append.mp hu with h | h
      · exact hP u h
      · rw [List.mem_singleton.mp h]; exact hv
    have key := ih (P ++ [v]) a' hPv hP' hL'
    rw [List.foldl_cons, step_eq P v a hPa hP hv]
    simpa [List.append_assoc] using key

/-- THE STREAMING FORM. From `(⊥, 0)`, over tiles none of whose entries is `⊤` and the first of which has an entry
    that is not `⊥`: the state ends at the supremum `M` of every entry, which is a real number, and at the sum over
    every entry of `exp (entry - M)`. -/
theorem foldl_step_init (v₀ : ι → EReal) (L : List (ι → EReal)) (h₀ : ∃ j, v₀ j ≠ ⊥)
    (hv : ∀ u ∈ v₀ :: L, ∀ j, u j ≠ ⊤) :
    (v₀ :: L).foldl step (⊥, 0) = (supAll (v₀ :: L), sumAll (v₀ :: L) (supAll (v₀ :: L)))
      ∧ ∃ a : ℝ, supAll (v₀ :: L) = a := by
  have hv₀ := hv v₀ (List.mem_cons.mpr (Or.inl rfl))
  have hL : ∀ u ∈ L, ∀ j, u j ≠ ⊤ := fun u hu => hv u (List.mem_cons.mpr (Or.inr hu))
  obtain ⟨j₀, hj₀⟩ := h₀
  have hne_bot : Finset.univ.sup v₀ ≠ ⊥ := fun h =>
    hj₀ (le_bot_iff.mp (h ▸ Finset.le_sup (f := v₀) (Finset.mem_univ j₀)))
  obtain ⟨a, ha⟩ : ∃ a : ℝ, Finset.univ.sup v₀ = a :=
    ⟨_, (EReal.coe_toReal (sup_ne_top hv₀) hne_bot).symm⟩
  have hs : supAll [v₀] = (a : EReal) := by simp [supAll, ha]
  have h1 : step ((⊥ : EReal), (0 : EReal)) v₀ = (supAll [v₀], sumAll [v₀] (supAll [v₀])) := by
    simp [step, supAll, sumAll]
  have key := foldl_step L [v₀] a hs (by intro u hu; rw [List.mem_singleton.mp hu]; exact hv₀) hL
  rw [List.foldl_cons, h1]
  simpa using key

/-! ## The same over a sequence of tiles indexed by the naturals

The form an induction over the points of a grid meets: the state after `k` tiles, by recursion on `k`. -/

/-- The state after the first `k` tiles of the sequence `x`. -/
def run (x : ℕ → ι → EReal) : ℕ → EReal × EReal
  | 0 => (⊥, 0)
  | k + 1 => step (run x k) (x k)

theorem run_eq_foldl (x : ℕ → ι → EReal) (k : ℕ) :
    run x k = ((List.range k).map x).foldl step (⊥, 0) := by
  induction k with
  | zero => rfl
  | succ k ih => rw [run, ih, List.range_succ, List.map_append, List.foldl_append]; rfl

theorem supAll_range (x : ℕ → ι → EReal) (k : ℕ) :
    supAll ((List.range k).map x) = (Finset.range k).sup fun i => Finset.univ.sup (x i) := by
  induction k with
  | zero => simp [supAll]
  | succ k ih =>
    rw [List.range_succ, List.map_append, List.map_singleton, supAll_append_singleton, ih, Finset.range_add_one,
      Finset.sup_insert]
    exact max_comm _ _

theorem sumAll_range (x : ℕ → ι → EReal) (k : ℕ) (M : EReal) :
    sumAll ((List.range k).map x) M = ∑ i ∈ Finset.range k, ∑ j, Ideal.exp (x i j - M) := by
  induction k with
  | zero => simp [sumAll]
  | succ k ih =>
    rw [List.range_succ, List.map_append, List.map_singleton, sumAll_append_singleton, ih, Finset.sum_range_succ]

/-- After `k + 1` tiles, none of whose entries is `⊤` and the first of which has an entry that is not `⊥`: the
    supremum of every entry met is a real `a`, and the state is `a` beside the sum of every `exp (entry - a)`. -/
theorem run_succ (x : ℕ → ι → EReal) (k : ℕ) (h₀ : ∃ j, x 0 j ≠ ⊥) (hx : ∀ i, i ≤ k → ∀ j, x i j ≠ ⊤) :
    ∃ a : ℝ, ((Finset.range (k + 1)).sup fun i => Finset.univ.sup (x i)) = (a : EReal) ∧
      run x (k + 1) = ((a : EReal), ∑ i ∈ Finset.range (k + 1), ∑ j, Ideal.exp (x i j - (a : EReal))) := by
  have hr : (List.range (k + 1)).map x = x 0 :: (List.range k).map (fun i => x (i + 1)) := by
    rw [List.range_succ_eq_map, List.map_cons, List.map_map]; rfl
  have hall : ∀ u ∈ (List.range (k + 1)).map x, ∀ j, u j ≠ ⊤ := by
    intro u hu
    obtain ⟨i, hi, rfl⟩ := List.mem_map.mp hu
    exact hx i (Nat.lt_succ_iff.mp (List.mem_range.mp hi))
  have key := foldl_step_init (x 0) ((List.range k).map fun i => x (i + 1)) h₀ (hr ▸ hall)
  rw [← hr] at key
  obtain ⟨hfold, a, ha⟩ := key
  refine ⟨a, by rw [← supAll_range, ha], ?_⟩
  rw [run_eq_foldl, hfold, ha, sumAll_range]

end Idealize.ShloMosaic.StreamingSoftmax

end
-- ==== Proof.LibIsReal.lean ====
/-
  A small calculus for "this extended real is a real number".

  At the exact instance a float is an extended real, and laws that cancel or distribute hold only away from the
  infinities.  A program whose inputs are real numbers keeps real numbers through sums, products, finite sums of
  products (a matrix product's entry), maxima (a ReLU, a row maximum) and differences; this file states each closure
  once, so that "every entry is real" can be carried layer by layer instead of being re-derived:

  * `IsReal x`: `x` is the coercion of a real number; `IsReal.ne_top`, `IsReal.ne_bot`;
  * closure: `coe`, `zero`, `add`, `sub`, `neg`, `mul`, `max`, `sum` (any finite sum), `sum_mul` (a finite sum of
    products), `sup` (a nonempty finite supremum);
  * `isReal_of_abs_lt_top`: an extended real whose absolute value `max x (-x)` is below `⊤` is a real number (the
    form in which a "finite input" precondition reads).
-/
import Idealize.ShloMosaic.PureOps.Ideal

namespace Idealize.ShloMosaic

/-- `x` is (the coercion of) a real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem ne_top {x : EReal} (h : IsReal x) : x ≠ ⊤ := by
  obtain ⟨r, rfl⟩ := h; exact EReal.coe_ne_top r

theorem ne_bot {x : EReal} (h : IsReal x) : x ≠ ⊥ := by
  obtain ⟨r, rfl⟩ := h; exact EReal.coe_ne_bot r

theorem of_ne {x : EReal} (ht : x ≠ ⊤) (hb : x ≠ ⊥) : IsReal x := by
  induction x using EReal.rec with
  | bot => exact absurd rfl hb
  | coe r => exact ⟨r, rfl⟩
  | top => exact absurd rfl ht

theorem add {x y : EReal} (hx : IsReal x) (hy : IsReal y) : IsReal (x + y) := by
  obtain ⟨a, rfl⟩ := hx; obtain ⟨b, rfl⟩ := hy; exact ⟨a + b, (EReal.coe_add a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy
  exact ⟨Max.max a b, (EReal.coe_strictMono.monotone.map_max (a := a) (b := b)).symm⟩

/-- A finite sum of real numbers is a real number. -/
theorem sum {ι : Type} (s : Finset ι) {f : ι → EReal} (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- A finite sum of products of real numbers (an entry of a matrix product) is a real number. -/
theorem sum_mul {ι : Type} [Fintype ι] {f g : ι → EReal} (hf : ∀ i, IsReal (f i)) (hg : ∀ i, IsReal (g i)) :
    IsReal (∑ i, f i * g i) :=
  sum Finset.univ fun i _ => mul (hf i) (hg i)

/-- A nonempty finite supremum of real numbers is a real number. -/
theorem sup {ι : Type} {s : Finset ι} (hs : s.Nonempty) {f : ι → EReal} (h : ∀ i ∈ s, IsReal (f i)) : IsReal (s.sup f) := by
  classical
  induction hs using Finset.Nonempty.cons_induction with
  | singleton a => rw [Finset.sup_singleton]; exact h a (Finset.mem_singleton_self a)
  | cons a s ha hs ih =>
    rw [Finset.sup_cons]
    exact max (h a (Finset.mem_cons_self a s)) (ih fun i hi => h i (Finset.mem_cons.mpr (Or.inr hi)))

end IsReal

/-- An extended real whose absolute value is below `⊤` is a real number. -/
theorem isReal_of_abs_lt_top {x : EReal} (h : Max.max x (-x) < ⊤) : IsReal x := by
  induction x using EReal.rec with
  | bot => rw [EReal.neg_bot, max_eq_right bot_le] at h; exact absurd h (lt_irrefl _)
  | coe r => exact ⟨r, rfl⟩
  | top => rw [max_eq_left le_top] at h; exact absurd h (lt_irrefl _)

end Idealize.ShloMosaic
-- ==== Proof.LibStreamingWeighted.lean ====
/-
  A weighted accumulator that rides on a streaming maximum, over the extended reals.

  Beside the running maximum `m` of the tiles met so far, the state carries `A`, and a tile `v` with weights `c`
  moves it to

      m' = max m (sup v),      A' = exp (m - m') * A + ∑ j, c j * exp (v j - m').

  If the weights are real numbers, no entry is `⊤` and the first tile has an entry that is not `⊥`, then after all
  the tiles `A = ∑ tiles, ∑ j, c j * exp (v j - M)` with `M` the overall supremum, a real number: each time the
  maximum moves, everything accumulated so far is rescaled by `exp (m - m')`, and on the reals
  `exp (x - m) * exp (m - m') = exp (x - m')` and multiplication distributes over the finite sums.
  With every weight `1` this is the running sum of exponentials of the streaming softmax.
-/
import proofs.«103353_j63419487093403_2_alg».proof.Proof.LibStreamingSoftmax
import proofs.«103353_j63419487093403_2_alg».proof.Proof.LibIsReal

noncomputable section

namespace Idealize.ShloMosaic.StreamingSoftmax

open Idealize.ShloMosaic

variable {ι : Type} [Fintype ι]

/-- One tile's move of the state `(m, A)`. -/
def stepW (s : EReal × EReal) (v c : ι → EReal) : EReal × EReal :=
  (max s.1 (Finset.univ.sup v),
    Ideal.exp (s.1 - max s.1 (Finset.univ.sup v)) * s.2 + ∑ j, c j * Ideal.exp (v j - max s.1 (Finset.univ.sup v)))

/-- The state after the first `k` tiles of the sequence `x` with weights `c`. -/
def runW (x c : ℕ → ι → EReal) : ℕ → EReal × EReal
  | 0 => (⊥, 0)
  | k + 1 => stepW (runW x c k) (x k) (c k)

/-- The maximum of the weighted state is the streaming softmax's. -/
theorem runW_fst (x c : ℕ → ι → EReal) (k : ℕ) : (runW x c k).1 = (run x k).1 := by
  induction k with
  | zero => rfl
  | succ k ih =>
    show max (runW x c k).1 (Finset.univ.sup (x k)) = max (run x k).1 (Finset.univ.sup (x k))
    rw [ih]

/-! ## The weighted sums, in the reals

With real weights, no entry `⊤` and a real shift `a`, every term `c i j * exp (x i j - a)` is the real number
`(c i j).toReal * w (x i j) a`, so the double sum over a finite set of tiles is the coercion of a real double sum;
and moving the shift from `a` to `a'` multiplies that real sum by `exp (a - a')`. -/

/-- The weighted sum over the tiles of `s`, shifted by a real `a`, is a real number. -/
theorem wsum_coe (x c : ℕ → ι → EReal) (s : Finset ℕ) (hx : ∀ i ∈ s, ∀ j, x i j ≠ ⊤)
    (hc : ∀ i ∈ s, ∀ j, IsReal (c i j)) (a : ℝ) :
    ∑ i ∈ s, ∑ j, c i j * Ideal.exp (x i j - (a : EReal))
      = ((∑ i ∈ s, ∑ j, (c i j).toReal * w (x i j) a : ℝ) : EReal) := by
  rw [coe_finset_sum]
  refine Finset.sum_congr rfl fun i hi => ?_
  rw [coe_finset_sum]
  refine Finset.sum_congr rfl fun j _ => ?_
  obtain ⟨r, hr⟩ := hc i hi j
  rw [exp_sub_coe (hx i hi j) a, hr, EReal.toReal_coe, EReal.coe_mul]

/-- Moving the shift from `a` to `a'` multiplies every term, hence the weighted sum, by `exp (a - a')`. -/
theorem wsum_mul (x c : ℕ → ι → EReal) (s : Finset ℕ) (a a' : ℝ) :
    Real.exp (a - a') * ∑ i ∈ s, ∑ j, (c i j).toReal * w (x i j) a
      = ∑ i ∈ s, ∑ j, (c i j).toReal * w (x i j) a' := by
  rw [Finset.mul_sum]
  refine Finset.sum_congr rfl fun i _ => ?_
  rw [Finset.mul_sum]
  refine Finset.sum_congr rfl fun j _ => ?_
  rw [← w_mul_exp (x i j) a a']
  ring

/-- After `k + 1` tiles with real weights, none of whose entries is `⊤` and the first of which has an entry that is
    not `⊥`: the supremum of every entry met is a real `a`, and the state is `a` beside the sum of every
    `c · exp (entry - a)`. -/
theorem runW_succ (x c : ℕ → ι → EReal) (k : ℕ) (h₀ : ∃ j, x 0 j ≠ ⊥) (hx : ∀ i, i ≤ k → ∀ j, x i j ≠ ⊤)
    (hc : ∀ i, i ≤ k → ∀ j, IsReal (c i j)) :
    ∃ a : ℝ, ((Finset.range (k + 1)).sup fun i => Finset.univ.sup (x i)) = (a : EReal) ∧
      runW x c (k + 1) = ((a : EReal), ∑ i ∈ Finset.range (k + 1), ∑ j, c i j * Ideal.exp (x i j - (a : EReal))) := by
  induction k with
  | zero =>
    -- one tile: the maximum is the tile's supremum, a real, and nothing has been accumulated before it
    obtain ⟨a, ha, -⟩ := run_succ x 0 h₀ hx
    have ha0 : Finset.univ.sup (x 0) = (a : EReal) := by simpa using ha
    refine ⟨a, ha, ?_⟩
    show stepW ((⊥ : EReal), (0 : EReal)) (x 0) (c 0) = _
    unfold stepW
    simp [ha0]
  | succ k ih =>
    obtain ⟨a, ha, hrun⟩ := ih (fun i hi => hx i (Nat.le_succ_of_le hi)) (fun i hi => hc i (Nat.le_succ_of_le hi))
    have hv : ∀ j, x (k + 1) j ≠ ⊤ := hx (k + 1) le_rfl
    obtain ⟨a', ha'⟩ := max_coe_real a (sup_ne_top hv)
    have hxs : ∀ i ∈ Finset.range (k + 1), ∀ j, x i j ≠ ⊤ := fun i hi =>
      hx i (Nat.le_succ_of_le (Nat.lt_succ_iff.mp (Finset.mem_range.mp hi)))
    have hcs : ∀ i ∈ Finset.range (k + 1), ∀ j, IsReal (c i j) := fun i hi =>
      hc i (Nat.le_succ_of_le (Nat.lt_succ_iff.mp (Finset.mem_range.mp hi)))
    refine ⟨a', ?_, ?_⟩
    · rw [Finset.range_add_one, Finset.sup_insert, ha, ← ha']
      exact max_comm _ _
    · -- the new maximum is `a'`; what was accumulated against `a` is rescaled by `exp (a - a')`
      rw [show runW x c (k + 1 + 1) = stepW (runW x c (k + 1)) (x (k + 1)) (c (k + 1)) from rfl, hrun]
      unfold stepW
      simp only
      rw [ha', Finset.sum_range_succ (fun i => ∑ j, c i j * Ideal.exp (x i j - (a' : EReal))) (k + 1),
        wsum_coe x c _ hxs hcs a, wsum_coe x c _ hxs hcs a', ← EReal.coe_sub, Ideal.exp_coe, ← EReal.coe_mul,
        wsum_mul]

end Idealize.ShloMosaic.StreamingSoftmax

end
-- ==== Proof.KernelTile.lean ====
/-
  The body's arithmetic on one tile, read entry by entry on the extended reals.

  From the four input blocks (a `[32, 256, 128]` block of the input, the two weight matrices and the bias) the body
  computes the tile of scores, entry `(r, q)` being

      ∑ u, tanh ((∑ d, x (r, q, d) · W1 (d, u)) + bias u) · W2 (u, 0),

  and from the scores and the three carried statistics it computes the new ones: row `r`'s running maximum against
  the tile's maximum, its running sum of exponentials rescaled and increased by the tile's, and for every lane `d` the
  running weighted sum of the row's vectors rescaled and increased by the tile's.  These are exactly one move of the
  streaming softmax and of its weighted accumulator.
-/
import proofs.«103353_j63419487093403_2_alg».proof.Proof.KernelPieces
import proofs.«103353_j63419487093403_2_alg».proof.Proof.LibMlpRows
import proofs.«103353_j63419487093403_2_alg».proof.Proof.LibColumns
import proofs.«103353_j63419487093403_2_alg».proof.Proof.LibLaneFolds
import proofs.«103353_j63419487093403_2_alg».proof.Proof.LibLaneLayout
import proofs.«103353_j63419487093403_2_alg».proof.Proof.LibFlatten
import proofs.«103353_j63419487093403_2_alg».proof.Proof.LibStreamingSoftmax
import proofs.«103353_j63419487093403_2_alg».proof.Proof.LibStreamingWeighted
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Attn

open Cert.KernelIdeal Cert.KernelIdeal.Gen Idealize.ShloMosaic.ValueIdx Idealize.ShloMosaic.StreamingSoftmax
open scoped BigOperators

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- The binary32 word of `-∞` is the bottom of the extended reals. -/
theorem ofBits_neg_inf : Ideal.ofBits .f32 0xFF800000#32 = ⊥ := by simp [Ideal.ofBits, Ideal.ieee]

/-- A fold of `max` from the bottom over every position is the supremum. -/
theorem fold_max_bot {n : ℕ} (f : Fin n → EReal) : (Finset.univ : Finset (Fin n)).fold max ⊥ f = Finset.univ.sup f := rfl

theorem dot_plain : dot_S8192x128_S128x64_S8192x64_1_0_0_1_n_n = DotDims.plain 8192 128 64 := rfl

variable (x0 : Vec Ideal S32x256x128 .f32) (x1 : Vec Ideal S128x64 .f32) (x2 : Vec Ideal S64x1 .f32) (x3 : Vec Ideal S64 .f32)

/-- The row `256 · r + q` of the flattened block. -/
abbrev flat (r : Fin 32) (q : Fin 256) : Fin 8192 := ⟨r.val * 256 + q.val, by have := r.isLt; have := q.isLt; omega⟩

/-- Entry `(r, q)` of the tile of scores. -/
theorem scoreT_apply (r : Fin 32) (q : Fin 256) :
    scoreT x0 x1 x2 x3 (ix2 r q)
      = ∑ u : Fin 64, Ideal.tanh ((∑ dd : Fin 128, x0 (ix3 r q dd) * x1 (ix2 dd u)) + x3 (ix1 u)) * x2 (ix2 u (0 : Fin 1)) := by
  unfold scoreT k0_pay8
  refine (Ideal.multiReduction_add_single _ _ reduces_S32x256x64_S32x256 _ _ (ix2 r q)).trans ?_
  refine Finset.sum_congr rfl fun (u : Fin 64) _ => ?_
  have hl : reduces_S32x256x64_S32x256.lift (ix2 r q) u = ix3 r q u :=
    funext fun a => Fin.ext (by
      match a with
      | ⟨0, _⟩ => rfl
      | ⟨1, _⟩ => rfl
      | ⟨2, _⟩ => rfl)
  rw [hl]
  simp only [mulf_apply, Cert.LibFlatten.split_apply _ _ r q u (flat r q) rfl, tanh_apply, addf_apply, matmul, dot_plain,
    Cert.LibMlp.matmul_zero_plain, truncf_apply, Cert.LibFlatten.merge_apply _ _ r q _ (flat r q) rfl,
    broadcastTo_1b_ab_apply, shapeCast_a_1a_apply, Cert.LaneLayout.broadcastTo_11c_abc_apply,
    Cert.LaneLayout.shapeCast_c_11c_apply, Cert.LibFlatten.column_apply]

/-- Row `r` of the tile, as the family of its 256 scores. -/
abbrev rowT (r : Fin 32) : Fin 256 → EReal := fun q => scoreT x0 x1 x2 x3 (ix2 r q)

theorem pay9_apply (xs0 : Vec Ideal S32x1 .f32) (r : Fin 32) (u : Fin 1) :
    k0_pay9 x0 x1 x3 x2 xs0 (ix2 r u) = max (xs0 (ix2 r u)) (Finset.univ.sup (rowT x0 x1 x2 x3 r)) := by
  unfold k0_pay9
  simp only [maximumf_apply, Cert.Columns.shapeCast_a_a1_apply]
  refine congrArg (max _) ?_
  refine (Cert.LaneFolds.laneMax_apply (a := 32) (b := 256) _ _ reduces_S32x256_S32 _ _ r).trans ?_
  rw [ofBits_neg_inf, fold_max_bot]
  rfl

theorem pay11_apply (xs0 : Vec Ideal S32x1 .f32) (r : Fin 32) (q : Fin 256) :
    k0_pay11 x0 x1 x3 x2 xs0 (ix2 r q)
      = Ideal.exp (rowT x0 x1 x2 x3 r q - max (xs0 (ix2 r (0 : Fin 1))) (Finset.univ.sup (rowT x0 x1 x2 x3 r))) := by
  unfold k0_pay11
  simp only [exp_apply, subf_apply, Cert.Columns.broadcastTo_a1_ab_apply, pay9_apply]
  rfl

theorem pay10_apply (xs0 : Vec Ideal S32x1 .f32) (r : Fin 32) (u : Fin 1) :
    k0_pay10 x0 x1 x3 x2 xs0 (ix2 r u)
      = Ideal.exp (xs0 (ix2 r u) - max (xs0 (ix2 r u)) (Finset.univ.sup (rowT x0 x1 x2 x3 r))) := by
  unfold k0_pay10
  simp only [exp_apply, subf_apply, pay9_apply]

/-- The new running maximum and running sum of row `r` are one move of the streaming softmax on the row's tile. -/
theorem ml_step (xs0 xs1 : Vec Ideal S32x1 .f32) (r : Fin 32) :
    (mNew x0 x1 x2 x3 xs0 (ix2 r (0 : Fin 1)), lNew x0 x1 x2 x3 xs0 xs1 (ix2 r (0 : Fin 1)))
      = step (xs0 (ix2 r (0 : Fin 1)), xs1 (ix2 r (0 : Fin 1))) (rowT x0 x1 x2 x3 r) := by
  unfold step mNew lNew k0_pay3 k0_pay1 k0_pay12
  simp only [shapeCast_self, addf_apply, mulf_apply, pay9_apply, pay10_apply, Cert.Columns.shapeCast_a_a1_apply]
  rw [mul_comm]
  refine Prod.ext rfl ?_
  show _ + _ = _ + _
  congr 1
  refine (Cert.LaneFolds.laneSum_apply (a := 32) (b := 256) _ _ reduces_S32x256_S32 _ _ r).trans ?_
  exact Finset.sum_congr rfl fun q _ => pay11_apply x0 x1 x2 x3 xs0 r q

/-- The new running weighted sum of row `r`, lane `d`, is one move of the weighted accumulator, the weights being the
    row's vectors at the tile's positions. -/
theorem a_step (xs0 : Vec Ideal S32x1 .f32) (xs2 : Vec Ideal S32x128 .f32) (r : Fin 32) (d : Fin 128) :
    (mNew x0 x1 x2 x3 xs0 (ix2 r (0 : Fin 1)), aNew x0 x1 x2 x3 xs0 xs2 (ix2 r d))
      = stepW (xs0 (ix2 r (0 : Fin 1)), xs2 (ix2 r d)) (rowT x0 x1 x2 x3 r) (fun q => x0 (ix3 r q d)) := by
  unfold stepW mNew aNew k0_pay3 k0_pay2
  simp only [shapeCast_self, pay9_apply, addf_apply, mulf_apply, Cert.Columns.broadcastTo_a1_ab_apply, pay10_apply]
  refine Prod.ext rfl ?_
  show _ + _ = _ + _
  congr 1
  refine (Ideal.multiReduction_add_single _ _ reduces_S32x256x128_S32x128 _ _ (ix2 r d)).trans ?_
  refine Finset.sum_congr rfl fun (q : Fin 256) _ => ?_
  have hl : reduces_S32x256x128_S32x128.lift (ix2 r d) q = ix3 r q d :=
    funext fun a => Fin.ext (by
      match a with
      | ⟨0, _⟩ => rfl
      | ⟨1, _⟩ => rfl
      | ⟨2, _⟩ => rfl)
  rw [hl]
  simp only [mulf_apply, Cert.LaneLayout.broadcastTo_ab1_abc_apply, Cert.LibFlatten.unitLast_apply, pay11_apply]

/-- The context the last tile stores: the weighted sum over the sum of exponentials. -/
theorem ctxT_apply (xs0 xs1 : Vec Ideal S32x1 .f32) (xs2 : Vec Ideal S32x128 .f32) (r : Fin 32) (d : Fin 128) :
    ctxT x0 x1 x2 x3 xs0 xs1 xs2 (ix2 r d)
      = Ideal.div (aNew x0 x1 x2 x3 xs0 xs2 (ix2 r d)) (lNew x0 x1 x2 x3 xs0 xs1 (ix2 r (0 : Fin 1))) := by
  unfold ctxT k0_pay4
  simp only [divf_apply, Cert.Columns.broadcastTo_a1_ab_apply]

/-- What a row's first tile starts from. -/
theorem m0_apply (r : Fin 32) (u : Fin 1) : (m0 : FVec Ideal S32x1 .f32) (ix2 r u) = ⊥ := by
  unfold m0 k0_pay5
  simp only [shapeCast_self, broadcast_apply]
  exact ofBits_neg_inf
theorem l0_apply (r : Fin 32) (u : Fin 1) : (l0 : FVec Ideal S32x1 .f32) (ix2 r u) = 0 := by
  unfold l0 k0_pay6
  simp only [shapeCast_self, broadcast_apply]
  exact Ideal.ofBits_zero_f32
theorem a0_apply (r : Fin 32) (d : Fin 128) : (a0 : FVec Ideal S32x128 .f32) (ix2 r d) = 0 := by
  unfold a0 k0_pay7
  simp only [shapeCast_self, broadcast_apply]
  exact Ideal.ofBits_zero_f32

end Cert.KernelIdeal.Attn

end
-- ==== Proof.Spec.lean ====
/-
  The mathematics of additive-attention pooling, on the extended reals, stated once for both programs.

  For an input `X : [256, 2048, 128]`, weights `W1 : [128, 64]`, `W2 : [64, 1]` and a bias `[64]`, row `b` and
  position `j` have the score

      sc b j = ∑ u, tanh ((∑ d, X b j d · W1 d u) + bias u) · W2 u 0,

  the weights are the softmax of the scores along the positions, shifted by the row's maximum,

      alpha b j = exp (sc b j − M b) / L b,     M b = sup_j sc b j,     L b = ∑ j, exp (sc b j − M b),

  and the pooled context is the weighted sum of the row's vectors, written here in the two arrangements that occur:
  the sum of `X b j d · exp (sc b j − M b)` divided ONCE by `L b` (`ctxK`), and the sum of `X b j d · alpha b j`
  (`ctxR`).  Arrays are read at natural-number coordinates (zero outside their extents) so that a tile of 256
  positions is simply the positions `256 · k + q`.
-/
import Idealize.ShloMosaic.PureOps.Ideal
import Idealize.ShloMosaic.Lib.ValueIdx

noncomputable section

namespace Cert.Attn

open Idealize.ShloMosaic Idealize.ShloMosaic.ValueIdx
open scoped BigOperators

/-- The input array read at natural-number coordinates: zero outside `[256, 2048, 128]`. -/
def X3 (X : (⟨3, ![256, 2048, 128]⟩ : Shape).Idx → EReal) (b j d : ℕ) : EReal :=
  if h : b < 256 ∧ j < 2048 ∧ d < 128 then X (ix3 ⟨b, h.1⟩ ⟨j, h.2.1⟩ ⟨d, h.2.2⟩) else 0

theorem X3_of_lt (X : (⟨3, ![256, 2048, 128]⟩ : Shape).Idx → EReal) (b : Fin 256) (j : Fin 2048) (d : Fin 128) :
    X3 X b.val j.val d.val = X (ix3 b j d) := by
  unfold X3
  rw [dif_pos ⟨b.isLt, j.isLt, d.isLt⟩]

section
variable (X : (⟨3, ![256, 2048, 128]⟩ : Shape).Idx → EReal) (W1 : (⟨2, ![128, 64]⟩ : Shape).Idx → EReal)
  (W2 : (⟨2, ![64, 1]⟩ : Shape).Idx → EReal) (bias : (⟨1, ![64]⟩ : Shape).Idx → EReal)

/-- The hidden unit `u` at row `b`, position `j`. -/
def hid (b j : ℕ) (u : Fin 64) : EReal :=
  Ideal.tanh ((∑ d : Fin 128, X3 X b j d.val * W1 (ix2 d u)) + bias (ix1 u))

/-- The score of position `j` of row `b`. -/
def sc (b j : ℕ) : EReal := ∑ u : Fin 64, hid X W1 bias b j u * W2 (ix2 u (0 : Fin 1))

/-- Tile `k` of row `b`: the scores of positions `256 · k + q`. -/
def tile (b k : ℕ) (q : Fin 256) : EReal := sc X W1 W2 bias b (256 * k + q.val)

/-- The weights that go with tile `k` of row `b` for lane `d`: the row's vectors at those positions. -/
def wts (b d k : ℕ) (q : Fin 256) : EReal := X3 X b (256 * k + q.val) d

/-- The row's maximal score. -/
def rowMax (b : ℕ) : EReal := Finset.univ.sup fun j : Fin 2048 => sc X W1 W2 bias b j.val

/-- The row's sum of shifted exponentials. -/
def rowSum (b : ℕ) : EReal := ∑ j : Fin 2048, Ideal.exp (sc X W1 W2 bias b j.val - rowMax X W1 W2 bias b)

/-- The softmax weight of position `j` of row `b`. -/
def alpha (b j : ℕ) : EReal :=
  Ideal.div (Ideal.exp (sc X W1 W2 bias b j - rowMax X W1 W2 bias b)) (rowSum X W1 W2 bias b)

/-- The context, divided once: lane `d` of row `b`. -/
def ctxK (b d : ℕ) : EReal :=
  Ideal.div (∑ j : Fin 2048, X3 X b j.val d * Ideal.exp (sc X W1 W2 bias b j.val - rowMax X W1 W2 bias b))
    (rowSum X W1 W2 bias b)

/-- The context as the sum of the row's vectors times their softmax weights. -/
def ctxR (b d : ℕ) : EReal := ∑ j : Fin 2048, X3 X b j.val d * alpha X W1 W2 bias b j.val

/-- The two result arrays as functions of the arguments. -/
def ctxArr : (⟨2, ![256, 128]⟩ : Shape).Idx → EReal := fun i => ctxK X W1 W2 bias (i 0).val (i 1).val
def alphaArr : (⟨3, ![256, 2048, 1]⟩ : Shape).Idx → EReal := fun i => alpha X W1 W2 bias (i 0).val (i 1).val

end

end Cert.Attn

end
-- ==== Proof.KernelPoints.lean ====
/-
  What the outputs' staging buffers and the three carried statistics hold after each grid point.

  The grid is 8 × 8: point `n` works on rows `32 · (n / 8) + r` and on tile `n % 8` (positions `256 · (n % 8) + q`).
  After point `n` the score buffer holds the tile's scores, and the three carried buffers hold, for each row, the
  streaming softmax's state after `n % 8 + 1` tiles of that row (maximum and sum of exponentials) and, for each
  lane, the weighted accumulator's state.  At a row's last tile the three small outputs receive the maximum, the sum,
  and the weighted sum divided by the sum.
-/
import proofs.«103353_j63419487093403_2_alg».proof.Proof.KernelTile
import proofs.«103353_j63419487093403_2_alg».proof.Proof.Spec

noncomputable section

open Idealize.ShloMosaic Idealize.ShloMosaic.TcCoe Idealize.SL.Sem

namespace Cert.KernelIdeal.Attn

open Cert.KernelIdeal Cert.KernelIdeal.Gen Idealize.ShloMosaic.ValueIdx Idealize.ShloMosaic.StreamingSoftmax Cert.Attn
open scoped BigOperators

variable (m : (ℓ : Loc nD τ sig) → Buf (Elt Ideal) ℓ) (c : Dev nD)

/-- The printed index maps over the grid: the input and the score output move with both grid coordinates, the small
    outputs with the first one, the weights and the bias do not move. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val / 8 ∧ win0_4.index t (1 : Fin 2) = t.val % 8
    ∧ win0_5.index t (0 : Fin 2) = t.val / 8 ∧ win0_5.index t (1 : Fin 2) = 0
    ∧ win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

/-- The input's block at point `t`, entry `(r, q, d)`: row `32 · (t / 8) + r`, position `256 · (t % 8) + q`. -/
theorem blk0_apply (t : Fin cfg0.N) (r : Fin 32) (q : Fin 256) (d : Fin 128) :
    (iblk m c 0 t : Vec Ideal S32x256x128 .f32) (ix3 r q d)
      = X3 (m ((c : Thread nD τ).loc main_arg0)) (32 * (t.val / 8) + r.val) (256 * (t.val % 8) + q.val) d.val := by
  have hN : cfg0.N = 64 := N_0
  have ht := t.isLt
  obtain ⟨e0, e1, e2, -⟩ := idx_facts t
  unfold X3
  rw [dif_pos ⟨by omega, by omega, d.isLt⟩]
  unfold iblk
  rw [View.read_apply]
  show V m c main_arg0 _ = _
  refine congrArg (m ((c : Thread nD τ).loc main_arg0)) (funext fun a => Fin.ext ?_)
  match a with
  | ⟨0, _⟩ => show win0_0.index t (0 : Fin 3) * 32 + 1 * r.val = 32 * (t.val / 8) + r.val; rw [e0]; omega
  | ⟨1, _⟩ => show win0_0.index t (1 : Fin 3) * 256 + 1 * q.val = 256 * (t.val % 8) + q.val; rw [e1]; omega
  | ⟨2, _⟩ => show win0_0.index t (2 : Fin 3) * 128 + 1 * d.val = d.val; rw [e2]; omega

/-- The two weight matrices and the bias are read whole at every point. -/
theorem blk1_eq (t : Fin cfg0.N) : (iblk m c 1 t : Vec Ideal S128x64 .f32) = m ((c : Thread nD τ).loc main_arg1) := by
  obtain ⟨-, -, -, e0, e1, -⟩ := idx_facts t
  funext j
  unfold iblk
  rw [View.read_apply]
  show V m c main_arg1 _ = _
  refine congrArg (m ((c : Thread nD τ).loc main_arg1)) (funext fun a => Fin.ext ?_)
  match a with
  | ⟨0, _⟩ => show win0_1.index t (0 : Fin 2) * 128 + 1 * (j 0).val = (j 0).val; rw [e0]; omega
  | ⟨1, _⟩ => show win0_1.index t (1 : Fin 2) * 64 + 1 * (j 1).val = (j 1).val; rw [e1]; omega

theorem blk2_eq (t : Fin cfg0.N) : (iblk m c 2 t : Vec Ideal S64x1 .f32) = m ((c : Thread nD τ).loc main_arg2) := by
  obtain ⟨-, -, -, -, -, e0, e1, -⟩ := idx_facts t
  funext j
  unfold iblk
  rw [View.read_apply]
  show V m c main_arg2 _ = _
  refine congrArg (m ((c : Thread nD τ).loc main_arg2)) (funext fun a => Fin.ext ?_)
  match a with
  | ⟨0, _⟩ => show win0_2.index t (0 : Fin 2) * 64 + 1 * (j 0).val = (j 0).val; rw [e0]; omega
  | ⟨1, _⟩ => show win0_2.index t (1 : Fin 2) * 1 + 1 * (j 1).val = (j 1).val; rw [e1]; omega

theorem blk3_eq (t : Fin cfg0.N) : (iblk m c 3 t : Vec Ideal S64 .f32) = m ((c : Thread nD τ).loc main_arg3) := by
  obtain ⟨-, -, -, -, -, -, -, e0, -⟩ := idx_facts t
  funext j
  unfold iblk
  rw [View.read_apply]
  show V m c main_arg3 _ = _
  refine congrArg (m ((c : Thread nD τ).loc main_arg3)) (funext fun a => Fin.ext ?_)
  match a with
  | ⟨0, _⟩ => show win0_3.index t (0 : Fin 1) * 64 + 1 * (j 0).val = (j 0).val; rw [e0]; omega

/-- A tile's row of scores computed from blocks is the specification's tile of the row the blocks belong to. -/
theorem rowT_eq_tile (x0 : Vec Ideal S32x256x128 .f32) (x1 : Vec Ideal S128x64 .f32) (x2 : Vec Ideal S64x1 .f32)
    (x3 : Vec Ideal S64 .f32) (X : S256x2048x128.Idx → EReal) (W1 : S128x64.Idx → EReal) (W2 : S64x1.Idx → EReal)
    (B : S64.Idx → EReal) (b k : ℕ) (r : Fin 32)
    (h0 : ∀ (q : Fin 256) (dd : Fin 128), x0 (ix3 r q dd) = X3 X b (256 * k + q.val) dd.val)
    (h1 : x1 = W1) (h2 : x2 = W2) (h3 : x3 = B) :
    rowT x0 x1 x2 x3 r = tile X W1 W2 B b k := by
  subst h1 h2 h3
  funext q
  show scoreT x0 x1 x2 x3 (ix2 r q) = _
  rw [scoreT_apply]
  unfold tile sc hid
  simp only [h0]

theorem rowT_blk (t : Fin cfg0.N) (r : Fin 32) :
    rowT (iblk m c 0 t) (iblk m c 1 t) (iblk m c 2 t) (iblk m c 3 t) r = tile (m ((c : Thread nD τ).loc main_arg0)) (m ((c : Thread nD τ).loc main_arg1)) (m ((c : Thread nD τ).loc main_arg2)) (m ((c : Thread nD τ).loc main_arg3)) (32 * (t.val / 8) + r.val) (t.val % 8) :=
  rowT_eq_tile (iblk m c 0 t) (iblk m c 1 t) (iblk m c 2 t) (iblk m c 3 t) _ _ _ _ _ _ r (fun q dd => blk0_apply m c t r q dd) (blk1_eq m c t) (blk2_eq m c t) (blk3_eq m c t)

theorem wts_blk (t : Fin cfg0.N) (r : Fin 32) (d : Fin 128) :
    (fun q : Fin 256 => (iblk m c 0 t : Vec Ideal S32x256x128 .f32) (ix3 r q d))
      = wts (m ((c : Thread nD τ).loc main_arg0)) (32 * (t.val / 8) + r.val) d.val (t.val % 8) :=
  funext fun q => blk0_apply m c t r q d

/-! ## The three cases of a point -/

/-- A row's first tile: the statistics start from `-∞`, zero and zero. -/
theorem caseA (t : Fin cfg0.N) (h0 : t.val % 8 = 0) (h1 : ¬t.val % 8 = 7) :
    (outsAt0 m c t.val t.isLt).1 = scoreT (iblk m c 0 t) (iblk m c 1 t) (iblk m c 2 t) (iblk m c 3 t)
    ∧ (outsAt0 m c t.val t.isLt).2.2.2.2.1 = mNew (iblk m c 0 t) (iblk m c 1 t) (iblk m c 2 t) (iblk m c 3 t) (m0 (F := Ideal))
    ∧ (outsAt0 m c t.val t.isLt).2.2.2.2.2.1 = lNew (iblk m c 0 t) (iblk m c 1 t) (iblk m c 2 t) (iblk m c 3 t) (m0 (F := Ideal)) (l0 (F := Ideal))
    ∧ (outsAt0 m c t.val t.isLt).2.2.2.2.2.2 = aNew (iblk m c 0 t) (iblk m c 1 t) (iblk m c 2 t) (iblk m c 3 t) (m0 (F := Ideal)) (a0 (F := Ideal)) := by
  have e := outsAt0_A m c t h0 h1
  exact ⟨(congrArg (fun p => p.1) e).trans (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)),
    (congrArg (fun p => p.2.2.2.2.1) e).trans (scr_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)),
    (congrArg (fun p => p.2.2.2.2.2.1) e).trans (scr_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)),
    (congrArg (fun p => p.2.2.2.2.2.2) e).trans (scr_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))⟩

/-- A tile in the middle of a row: the statistics move on from what the point before left. -/
theorem caseB (t : Fin cfg0.N) (h0 : ¬t.val % 8 = 0) (h1 : ¬t.val % 8 = 7) :
    (outsAt0 m c t.val t.isLt).1 = scoreT (iblk m c 0 t) (iblk m c 1 t) (iblk m c 2 t) (iblk m c 3 t)
    ∧ (outsAt0 m c t.val t.isLt).2.2.2.2.1 = mNew (iblk m c 0 t) (iblk m c 1 t) (iblk m c 2 t) (iblk m c 3 t) (outsAt0 m c (t.val - 1) (Nat.lt_of_le_of_lt (Nat.sub_le _ _) t.isLt)).2.2.2.2.1
    ∧ (outsAt0 m c t.val t.isLt).2.2.2.2.2.1 = lNew (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1
    ∧ (outsAt0 m c t.val t.isLt).2.2.2.2.2.2 = aNew (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 := by
  have e := outsAt0_B m c t h0 h1
  revert e
  generalize outsAt0 m c (t.val - 1) (Nat.lt_of_le_of_lt (Nat.sub_le _ _) t.isLt) = prev
  intro e
  exact ⟨(congrArg (fun p => p.1) e).trans (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) prev.2.2.2.2.1 prev.2.2.2.2.2.1 prev.2.2.2.2.2.2),
    (congrArg (fun p => p.2.2.2.2.1) e).trans (scr_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) prev.2.2.2.2.1 prev.2.2.2.2.2.1 prev.2.2.2.2.2.2),
    (congrArg (fun p => p.2.2.2.2.2.1) e).trans (scr_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) prev.2.2.2.2.1 prev.2.2.2.2.2.1 prev.2.2.2.2.2.2),
    (congrArg (fun p => p.2.2.2.2.2.2) e).trans (scr_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) prev.2.2.2.2.1 prev.2.2.2.2.2.1 prev.2.2.2.2.2.2)⟩

/-- A row's last tile: the same move, and the three small outputs receive the final statistics. -/
theorem caseC (t : Fin cfg0.N) (h0 : ¬t.val % 8 = 0) (h1 : t.val % 8 = 7) :
    ((outsAt0 m c t.val t.isLt).1 = scoreT (iblk m c 0 t) (iblk m c 1 t) (iblk m c 2 t) (iblk m c 3 t)
    ∧ (outsAt0 m c t.val t.isLt).2.2.2.2.1 = mNew (iblk m c 0 t) (iblk m c 1 t) (iblk m c 2 t) (iblk m c 3 t) (outsAt0 m c (t.val - 1) (Nat.lt_of_le_of_lt (Nat.sub_le _ _) t.isLt)).2.2.2.2.1
    ∧ (outsAt0 m c t.val t.isLt).2.2.2.2.2.1 = lNew (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1
    ∧ (outsAt0 m c t.val t.isLt).2.2.2.2.2.2 = aNew (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2)
    ∧ (outsAt0 m c t.val t.isLt).2.1 = mNew (iblk m c 0 t) (iblk m c 1 t) (iblk m c 2 t) (iblk m c 3 t) (outsAt0 m c (t.val - 1) (Nat.lt_of_le_of_lt (Nat.sub_le _ _) t.isLt)).2.2.2.2.1
    ∧ (outsAt0 m c t.val t.isLt).2.2.1 = lNew (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1
    ∧ (outsAt0 m c t.val t.isLt).2.2.2.1 = ctxT (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  have e := outsAt0_C m c t h0 h1
  revert e
  generalize outsAt0 m c (t.val - 1) (Nat.lt_of_le_of_lt (Nat.sub_le _ _) t.isLt) = prev
  intro e
  exact ⟨⟨(congrArg (fun p => p.1) e).trans (out_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) prev.2.2.2.2.1 prev.2.2.2.2.2.1 prev.2.2.2.2.2.2),
    (congrArg (fun p => p.2.2.2.2.1) e).trans (scr_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) prev.2.2.2.2.1 prev.2.2.2.2.2.1 prev.2.2.2.2.2.2),
    (congrArg (fun p => p.2.2.2.2.2.1) e).trans (scr_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) prev.2.2.2.2.1 prev.2.2.2.2.2.1 prev.2.2.2.2.2.2),
    (congrArg (fun p => p.2.2.2.2.2.2) e).trans (scr_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) prev.2.2.2.2.1 prev.2.2.2.2.2.1 prev.2.2.2.2.2.2)⟩,
    (congrArg (fun p => p.2.1) e).trans (out_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) prev.2.2.2.2.1 prev.2.2.2.2.2.1 prev.2.2.2.2.2.2),
    (congrArg (fun p => p.2.2.1) e).trans (out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) prev.2.2.2.2.1 prev.2.2.2.2.2.1 prev.2.2.2.2.2.2),
    (congrArg (fun p => p.2.2.2.1) e).trans (out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) prev.2.2.2.2.1 prev.2.2.2.2.2.1 prev.2.2.2.2.2.2)⟩

end Cert.KernelIdeal.Attn

end
-- ==== Proof.KernelInv.lean ====
/-
  The invariant of the grid: after point `n`, for every row `r` of the point's 32 rows, the carried maximum and sum
  are the streaming softmax's state after `n % 8 + 1` tiles of row `32 · (n / 8) + r`, and for every lane the carried
  weighted sum is the weighted accumulator's state; the score buffer holds the tile's scores.  By induction on the
  point: a row's first tile starts from `(-∞, 0)`, every other tile moves on from what the point before left.
-/
import proofs.«103353_j63419487093403_2_alg».proof.Proof.KernelPoints

noncomputable section

open Idealize.ShloMosaic Idealize.ShloMosaic.TcCoe Idealize.SL.Sem

namespace Cert.KernelIdeal.Attn

open Cert.KernelIdeal Cert.KernelIdeal.Gen Idealize.ShloMosaic.ValueIdx Idealize.ShloMosaic.StreamingSoftmax Cert.Attn
open scoped BigOperators

variable (m : (ℓ : Loc nD τ sig) → Buf (Elt Ideal) ℓ) (c : Dev nD)

/-- What holds after point `n`. -/
def Inv (n : ℕ) (h : n < cfg0.N) : Prop :=
  (∀ (r : Fin 32) (q : Fin 256), (outsAt0 m c n h).1 (ix2 r q) = (tile (m ((c : Thread nD τ).loc main_arg0)) (m ((c : Thread nD τ).loc main_arg1)) (m ((c : Thread nD τ).loc main_arg2)) (m ((c : Thread nD τ).loc main_arg3)) (32 * (n / 8) + r.val)) (n % 8) q)
  ∧ (∀ r : Fin 32, ((outsAt0 m c n h).2.2.2.2.1 (ix2 r (0 : Fin 1)), (outsAt0 m c n h).2.2.2.2.2.1 (ix2 r (0 : Fin 1)))
        = run (tile (m ((c : Thread nD τ).loc main_arg0)) (m ((c : Thread nD τ).loc main_arg1)) (m ((c : Thread nD τ).loc main_arg2)) (m ((c : Thread nD τ).loc main_arg3)) (32 * (n / 8) + r.val)) (n % 8 + 1))
  ∧ (∀ (r : Fin 32) (d : Fin 128), ((outsAt0 m c n h).2.2.2.2.1 (ix2 r (0 : Fin 1)), (outsAt0 m c n h).2.2.2.2.2.2 (ix2 r d))
        = runW (tile (m ((c : Thread nD τ).loc main_arg0)) (m ((c : Thread nD τ).loc main_arg1)) (m ((c : Thread nD τ).loc main_arg2)) (m ((c : Thread nD τ).loc main_arg3)) (32 * (n / 8) + r.val)) (wts (m ((c : Thread nD τ).loc main_arg0)) (32 * (n / 8) + r.val) d.val) (n % 8 + 1))

/-- A row's first tile establishes it. -/
theorem inv_A (t : Fin cfg0.N) (h0 : t.val % 8 = 0) : Inv m c t.val t.isLt := by
  have h1 : ¬t.val % 8 = 7 := by omega
  obtain ⟨e4, em, el, ea⟩ := caseA m c t h0 h1
  unfold Inv
  refine ⟨fun r q => ?_, fun r => ?_, fun r d => ?_⟩
  · rw [e4]
    exact congrFun (rowT_blk m c t r) q
  · rw [em, el]
    refine (ml_step (iblk m c 0 t) (iblk m c 1 t) (iblk m c 2 t) (iblk m c 3 t) (m0 (F := Ideal)) (l0 (F := Ideal)) r).trans ?_
    rw [m0_apply, l0_apply, rowT_blk m c t r, h0]
    rfl
  · rw [em, ea]
    refine (a_step (iblk m c 0 t) (iblk m c 1 t) (iblk m c 2 t) (iblk m c 3 t) (m0 (F := Ideal)) (a0 (F := Ideal)) r d).trans ?_
    rw [m0_apply, a0_apply, rowT_blk m c t r, wts_blk m c t r d, h0]
    rfl

/-- Every other tile keeps it. -/
theorem inv_BC (t : Fin cfg0.N) (h0 : ¬t.val % 8 = 0)
    (ih : Inv m c (t.val - 1) (Nat.lt_of_le_of_lt (Nat.sub_le _ _) t.isLt)) : Inv m c t.val t.isLt := by
  have hstep : (outsAt0 m c t.val t.isLt).1 = scoreT (iblk m c 0 t) (iblk m c 1 t) (iblk m c 2 t) (iblk m c 3 t)
      ∧ (outsAt0 m c t.val t.isLt).2.2.2.2.1 = mNew (iblk m c 0 t) (iblk m c 1 t) (iblk m c 2 t) (iblk m c 3 t) (outsAt0 m c (t.val - 1) (Nat.lt_of_le_of_lt (Nat.sub_le _ _) t.isLt)).2.2.2.2.1
      ∧ (outsAt0 m c t.val t.isLt).2.2.2.2.2.1 = lNew (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1
      ∧ (outsAt0 m c t.val t.isLt).2.2.2.2.2.2 = aNew (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 := by
    by_cases h1 : t.val % 8 = 7
    · exact (caseC m c t h0 h1).1
    · exact caseB m c t h0 h1
  have e1 : (t.val - 1) / 8 = t.val / 8 := by omega
  have e2 : (t.val - 1) % 8 + 1 = t.val % 8 := by omega
  unfold Inv at ih
  revert ih hstep
  generalize outsAt0 m c (t.val - 1) (Nat.lt_of_le_of_lt (Nat.sub_le _ _) t.isLt) = prev
  intro ih hstep
  obtain ⟨e4, em, el, ea⟩ := hstep
  obtain ⟨-, ihml, iha⟩ := ih
  unfold Inv
  refine ⟨fun r q => ?_, fun r => ?_, fun r d => ?_⟩
  · rw [e4]
    exact congrFun (rowT_blk m c t r) q
  · rw [em, el]
    refine (ml_step (iblk m c 0 t) (iblk m c 1 t) (iblk m c 2 t) (iblk m c 3 t) prev.2.2.2.2.1 prev.2.2.2.2.2.1 r).trans ?_
    rw [ihml r, e1, e2, rowT_blk m c t r]
    rfl
  · rw [em, ea]
    refine (a_step (iblk m c 0 t) (iblk m c 1 t) (iblk m c 2 t) (iblk m c 3 t) prev.2.2.2.2.1 prev.2.2.2.2.2.2 r d).trans ?_
    rw [iha r d, e1, e2, rowT_blk m c t r, wts_blk m c t r d]
    rfl

/-- So it holds after every point. -/
theorem inv : ∀ (n : ℕ) (h : n < cfg0.N), Inv m c n h
  | 0, h => inv_A m c ⟨0, h⟩ (Nat.zero_mod 8)
  | n + 1, h => by
    by_cases h0 : (n + 1) % 8 = 0
    · exact inv_A m c ⟨n + 1, h⟩ h0
    · exact inv_BC m c ⟨n + 1, h⟩ h0 (inv n (Nat.lt_of_succ_lt h))

/-- At a row's last tile the three small outputs hold the final state: the maximum, the sum, and for every lane the
    weighted sum over the sum. -/
theorem out_last (t : Fin cfg0.N) (h1 : t.val % 8 = 7) (r : Fin 32) :
    ((outsAt0 m c t.val t.isLt).2.1 (ix2 r (0 : Fin 1)), (outsAt0 m c t.val t.isLt).2.2.1 (ix2 r (0 : Fin 1))) = run (tile (m ((c : Thread nD τ).loc main_arg0)) (m ((c : Thread nD τ).loc main_arg1)) (m ((c : Thread nD τ).loc main_arg2)) (m ((c : Thread nD τ).loc main_arg3)) (32 * (t.val / 8) + r.val)) 8
    ∧ ∀ d : Fin 128, (outsAt0 m c t.val t.isLt).2.2.2.1 (ix2 r d)
        = Ideal.div (runW (tile (m ((c : Thread nD τ).loc main_arg0)) (m ((c : Thread nD τ).loc main_arg1)) (m ((c : Thread nD τ).loc main_arg2)) (m ((c : Thread nD τ).loc main_arg3)) (32 * (t.val / 8) + r.val)) (wts (m ((c : Thread nD τ).loc main_arg0)) (32 * (t.val / 8) + r.val) d.val) 8).2 (run (tile (m ((c : Thread nD τ).loc main_arg0)) (m ((c : Thread nD τ).loc main_arg1)) (m ((c : Thread nD τ).loc main_arg2)) (m ((c : Thread nD τ).loc main_arg3)) (32 * (t.val / 8) + r.val)) 8).2 := by
  have h0 : ¬t.val % 8 = 0 := by omega
  have hC := caseC m c t h0 h1
  revert hC
  generalize outsAt0 m c (t.val - 1) (Nat.lt_of_le_of_lt (Nat.sub_le _ _) t.isLt) = prev
  intro hC
  obtain ⟨⟨e4, em, el, ea⟩, o5, o6, o7⟩ := hC
  have hI := inv m c t.val t.isLt
  unfold Inv at hI
  obtain ⟨-, iml, ia⟩ := hI
  have hml := iml r
  rw [h1] at hml
  refine ⟨?_, fun d => ?_⟩
  · rw [o5, o6, ← em, ← el]
    exact hml
  · have ha := ia r d
    rw [h1] at ha
    rw [o7]
    refine (ctxT_apply (iblk m c 0 t) (iblk m c 1 t) (iblk m c 2 t) (iblk m c 3 t) prev.2.2.2.2.1 prev.2.2.2.2.2.1 prev.2.2.2.2.2.2 r d).trans ?_
    rw [← ea, ← el]
    exact congrArg₂ Ideal.div (congrArg Prod.snd ha) (congrArg Prod.snd hml)

end Cert.KernelIdeal.Attn

end
-- ==== Proof.KernelTail.lean ====
/-
  The lines after the kernel finish the softmax on the host: the weights are `exp (score − max) / sum`, the row's
  maximum and sum being `[256, 1]` columns repeated along the positions, and the result gets a trailing unit axis.
-/
import proofs.«103353_j63419487093403_2_alg».proof.KernelIdeal
import Idealize.ShloMosaic.Lib.ValueIdx
import Idealize.ShloMosaic.Lib.Pipeline.Value
import Idealize.ShloMosaic.PureOps.Ideal.Laws

noncomputable section

namespace Cert.KernelIdeal.Attn

open Idealize.ShloMosaic Idealize.ShloMosaic.ValueIdx Cert.KernelIdeal

/-- The host's epilogue as one function of the kernel's three arrays. -/
def tailArr [Cert.KernelIdeal.Facts] (s : FVec Ideal S256x2048 .f32) (mx : FVec Ideal S256x1 .f32) (sm : FVec Ideal S256x1 .f32) :
    FVec Ideal S256x2048x1 .f32 :=
  broadcastInDim S256x2048x1 ![0, 1] Facts₀.bcast_S256x2048_S256x2048x1_0_1
    (Host.divf (Host.exp (subf s (broadcastInDim S256x2048 ![0, 1] Facts₀.bcast_S256x1_S256x2048_0_1 mx)))
      (broadcastInDim S256x2048 ![0, 1] Facts₀.bcast_S256x1_S256x2048_0_1 sm))

/-- Entry `(b, j, u)` of the epilogue's result. -/
theorem tailArr_apply [Cert.KernelIdeal.Facts] (s : FVec Ideal S256x2048 .f32) (mx : FVec Ideal S256x1 .f32) (sm : FVec Ideal S256x1 .f32)
    (b : Fin 256) (j : Fin 2048) (u : Fin 1) :
    tailArr s mx sm (ix3 b j u)
      = Ideal.div (Ideal.exp (s (ix2 b j) - mx (ix2 b (0 : Fin 1)))) (sm (ix2 b (0 : Fin 1))) := by
  unfold tailArr
  rw [broadcastInDim_apply ![0, 1] Facts₀.bcast_S256x2048_S256x2048x1_0_1 _ (ix3 b j u) (ix2 b j)
    (fun a => by match a with | ⟨0, _⟩ => rfl | ⟨1, _⟩ => rfl)]
  show Ideal.div (Ideal.exp (s (ix2 b j)
        - broadcastInDim S256x2048 ![0, 1] Facts₀.bcast_S256x1_S256x2048_0_1 mx (ix2 b j)))
      (broadcastInDim S256x2048 ![0, 1] Facts₀.bcast_S256x1_S256x2048_0_1 sm (ix2 b j)) = _
  rw [broadcastInDim_apply ![0, 1] Facts₀.bcast_S256x1_S256x2048_0_1 mx (ix2 b j) (ix2 b (0 : Fin 1))
      (fun a => by match a with | ⟨0, _⟩ => rfl | ⟨1, _⟩ => rfl),
    broadcastInDim_apply ![0, 1] Facts₀.bcast_S256x1_S256x2048_0_1 sm (ix2 b j) (ix2 b (0 : Fin 1))
      (fun a => by match a with | ⟨0, _⟩ => rfl | ⟨1, _⟩ => rfl)]

end Cert.KernelIdeal.Attn

end
-- ==== Proof.KernelArrays.lean ====
/-
  From blocks to arrays.  Every point writes its tile of scores back, and the 8 × 8 tiles cover the `[256, 2048]`
  score array; a row's last tile writes the three small outputs back, and those 8 blocks of 32 rows cover the
  `[256, 1]` maximum and sum and the `[256, 128]` context.  So after the run each of the four arrays is one function
  of the arguments, index by index; the lines after the kernel then compute the weights from three of them.
-/
import proofs.«103353_j63419487093403_2_alg».proof.Proof.KernelInv
import proofs.«103353_j63419487093403_2_alg».proof.Proof.KernelTail
import Idealize.ShloMosaic.Lib.StableHlo.Run

noncomputable section

open Idealize.ShloMosaic Idealize.ShloMosaic.TcCoe Idealize.SL.Sem

namespace Cert.KernelIdeal.Attn

open Cert.KernelIdeal Cert.KernelIdeal.Gen Idealize.ShloMosaic.ValueIdx Idealize.ShloMosaic.StreamingSoftmax Cert.Attn
open scoped BigOperators

variable (m : (ℓ : Loc nD τ sig) → Buf (Elt Ideal) ℓ) (ρ : Dev nD → PrngReg) (c : Dev nD)

/-- The four arrays the kernel leaves, as functions of the arguments: the scores; each row's streaming maximum and sum
    after its 8 tiles; each row's weighted sums over its sum. -/
def G4 : Vec Ideal S256x2048 .f32 := fun i => sc (m ((c : Thread nD τ).loc main_arg0)) (m ((c : Thread nD τ).loc main_arg1)) (m ((c : Thread nD τ).loc main_arg2)) (m ((c : Thread nD τ).loc main_arg3)) (i 0).val (i 1).val
def G5 : Vec Ideal S256x1 .f32 := fun i => (run (tile (m ((c : Thread nD τ).loc main_arg0)) (m ((c : Thread nD τ).loc main_arg1)) (m ((c : Thread nD τ).loc main_arg2)) (m ((c : Thread nD τ).loc main_arg3)) (i 0).val) 8).1
def G6 : Vec Ideal S256x1 .f32 := fun i => (run (tile (m ((c : Thread nD τ).loc main_arg0)) (m ((c : Thread nD τ).loc main_arg1)) (m ((c : Thread nD τ).loc main_arg2)) (m ((c : Thread nD τ).loc main_arg3)) (i 0).val) 8).2
def G7 : Vec Ideal S256x128 .f32 := fun i =>
  Ideal.div (runW (tile (m ((c : Thread nD τ).loc main_arg0)) (m ((c : Thread nD τ).loc main_arg1)) (m ((c : Thread nD τ).loc main_arg2)) (m ((c : Thread nD τ).loc main_arg3)) (i 0).val) (wts (m ((c : Thread nD τ).loc main_arg0)) (i 0).val (i 1).val) 8).2
    (run (tile (m ((c : Thread nD τ).loc main_arg0)) (m ((c : Thread nD τ).loc main_arg1)) (m ((c : Thread nD τ).loc main_arg2)) (m ((c : Thread nD τ).loc main_arg3)) (i 0).val) 8).2

/-! ## What each point writes back -/

theorem flushed4 (t : Fin cfg0.N) :
    (dats m 0 c).flushed 4 t = ((cfg0.win 4).blk t).view.read (Elt Ideal) (G4 m c) := by
  obtain ⟨-, -, -, -, -, -, -, -, e0, e1, -⟩ := idx_facts t
  show (cfg0.win 4).cut (grid0.coords t) ((dats m 0 c).after 4 t) = _
  rw [after0_4]
  funext j
  obtain ⟨r, q, rfl⟩ : ∃ (r : Fin 32) (q : Fin 256), j = ix2 r q := ⟨j 0, j 1, eq_ix2 j⟩
  show (outsAt0 m c t.val t.isLt).1 (ix2 r q) = G4 m c (((cfg0.win 4).blk t).view.emb (ix2 r q))
  rw [(inv m c t.val t.isLt).1 r q]
  have ha : ((((cfg0.win 4).blk t).view.emb (ix2 r q)) 0).val = 32 * (t.val / 8) + r.val := by
    show win0_4.index t (0 : Fin 2) * 32 + 1 * r.val = _
    rw [e0]; omega
  have hb : ((((cfg0.win 4).blk t).view.emb (ix2 r q)) 1).val = 256 * (t.val % 8) + q.val := by
    show win0_4.index t (1 : Fin 2) * 256 + 1 * q.val = _
    rw [e1]; omega
  unfold G4 tile
  rw [ha, hb]

theorem flushed5 (t : Fin cfg0.N) (hf : (cfg0.win 5).flush t = true) :
    (dats m 0 c).flushed 5 t = ((cfg0.win 5).blk t).view.read (Elt Ideal) (G5 m c) := by
  have h1 : t.val % 8 = 7 := (flush0_5 t).mp hf
  obtain ⟨-, -, -, -, -, -, -, -, -, -, e0, -⟩ := idx_facts t
  show (cfg0.win 5).cut (grid0.coords t) ((dats m 0 c).after 5 t) = _
  rw [after0_5]
  funext j
  obtain ⟨r, u, rfl⟩ : ∃ (r : Fin 32) (u : Fin 1), j = ix2 r u := ⟨j 0, j 1, eq_ix2 j⟩
  obtain rfl : u = 0 := Subsingleton.elim _ _
  show (outsAt0 m c t.val t.isLt).2.1 (ix2 r (0 : Fin 1)) = G5 m c (((cfg0.win 5).blk t).view.emb (ix2 r (0 : Fin 1)))
  have ha : ((((cfg0.win 5).blk t).view.emb (ix2 r (0 : Fin 1))) 0).val = 32 * (t.val / 8) + r.val := by
    show win0_5.index t (0 : Fin 2) * 32 + 1 * r.val = _
    rw [e0]; omega
  unfold G5
  rw [ha]
  exact congrArg Prod.fst (out_last m c t h1 r).1

theorem flushed6 (t : Fin cfg0.N) (hf : (cfg0.win 6).flush t = true) :
    (dats m 0 c).flushed 6 t = ((cfg0.win 6).blk t).view.read (Elt Ideal) (G6 m c) := by
  have h1 : t.val % 8 = 7 := (flush0_6 t).mp hf
  obtain ⟨-, -, -, -, -, -, -, -, -, -, -, -, e0, -⟩ := idx_facts t
  show (cfg0.win 6).cut (grid0.coords t) ((dats m 0 c).after 6 t) = _
  rw [after0_6]
  funext j
  obtain ⟨r, u, rfl⟩ : ∃ (r : Fin 32) (u : Fin 1), j = ix2 r u := ⟨j 0, j 1, eq_ix2 j⟩
  obtain rfl : u = 0 := Subsingleton.elim _ _
  show (outsAt0 m c t.val t.isLt).2.2.1 (ix2 r (0 : Fin 1)) = G6 m c (((cfg0.win 6).blk t).view.emb (ix2 r (0 : Fin 1)))
  have ha : ((((cfg0.win 6).blk t).view.emb (ix2 r (0 : Fin 1))) 0).val = 32 * (t.val / 8) + r.val := by
    show win0_6.index t (0 : Fin 2) * 32 + 1 * r.val = _
    rw [e0]; omega
  unfold G6
  rw [ha]
  exact congrArg Prod.snd (out_last m c t h1 r).1

theorem flushed7 (t : Fin cfg0.N) (hf : (cfg0.win 7).flush t = true) :
    (dats m 0 c).flushed 7 t = ((cfg0.win 7).blk t).view.read (Elt Ideal) (G7 m c) := by
  have h1 : t.val % 8 = 7 := (flush0_7 t).mp hf
  obtain ⟨-, -, -, -, -, -, -, -, -, -, -, -, -, -, e0, e1⟩ := idx_facts t
  show (cfg0.win 7).cut (grid0.coords t) ((dats m 0 c).after 7 t) = _
  rw [after0_7]
  funext j
  obtain ⟨r, d, rfl⟩ : ∃ (r : Fin 32) (d : Fin 128), j = ix2 r d := ⟨j 0, j 1, eq_ix2 j⟩
  show (outsAt0 m c t.val t.isLt).2.2.2.1 (ix2 r d) = G7 m c (((cfg0.win 7).blk t).view.emb (ix2 r d))
  have ha : ((((cfg0.win 7).blk t).view.emb (ix2 r d)) 0).val = 32 * (t.val / 8) + r.val := by
    show win0_7.index t (0 : Fin 2) * 32 + 1 * r.val = _
    rw [e0]; omega
  have hb : ((((cfg0.win 7).blk t).view.emb (ix2 r d)) 1).val = d.val := by
    show win0_7.index t (1 : Fin 2) * 128 + 1 * d.val = _
    rw [e1]; omega
  unfold G7
  rw [ha, hb]
  exact (out_last m c t h1 r).2 d

/-! ## The blocks cover the arrays -/

theorem mem_blk4 (t : Fin cfg0.N) (i : S256x2048.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v0_0).slice (win0_4.rect t)).set ↔ _
  rw [View.set_slice_whole, Rect.mem_set_unit]
  exact Iff.rfl

theorem mem_blk5 (t : Fin cfg0.N) (i : S256x1.Idx) :
    i ∈ ((cfg0.win 5).blk t).view.set ↔ ∀ a : Fin 2, win0_5.index t a * S32x1.size a ≤ (i a).val ∧ (i a).val < win0_5.index t a * S32x1.size a + S32x1.size a := by
  show i ∈ ((View.whole main_v0_1).slice (win0_5.rect t)).set ↔ _
  rw [View.set_slice_whole, Rect.mem_set_unit]
  exact Iff.rfl

theorem mem_blk6 (t : Fin cfg0.N) (i : S256x1.Idx) :
    i ∈ ((cfg0.win 6).blk t).view.set ↔ ∀ a : Fin 2, win0_6.index t a * S32x1.size a ≤ (i a).val ∧ (i a).val < win0_6.index t a * S32x1.size a + S32x1.size a := by
  show i ∈ ((View.whole main_v0_2).slice (win0_6.rect t)).set ↔ _
  rw [View.set_slice_whole, Rect.mem_set_unit]
  exact Iff.rfl

theorem mem_blk7 (t : Fin cfg0.N) (i : S256x128.Idx) :
    i ∈ ((cfg0.win 7).blk t).view.set ↔ ∀ a : Fin 2, win0_7.index t a * S32x128.size a ≤ (i a).val ∧ (i a).val < win0_7.index t a * S32x128.size a + S32x128.size a := by
  show i ∈ ((View.whole main_v0_3).slice (win0_7.rect t)).set ↔ _
  rw [View.set_slice_whole, Rect.mem_set_unit]
  exact Iff.rfl

/-- The point whose tile holds row `a`, position `b`. -/
def ptOf (a b : ℕ) (ha : a < 256) (hb : b < 2048) : Fin cfg0.N :=
  ⟨8 * (a / 32) + b / 256, by have : cfg0.N = 64 := N_0; omega⟩

theorem cover4 (i : S256x2048.Idx) : ∃ t : Fin cfg0.N, (cfg0.win 4).flush t = true ∧ i ∈ ((cfg0.win 4).blk t).view.set := by
  have h0 : (i 0).val < 256 := (i 0).isLt
  have h1 : (i 1).val < 2048 := (i 1).isLt
  refine ⟨ptOf (i 0).val (i 1).val h0 h1, flush0_4 _, (mem_blk4 _ i).mpr fun a => ?_⟩
  obtain ⟨-, -, -, -, -, -, -, -, e0, e1, -⟩ := idx_facts (ptOf (i 0).val (i 1).val h0 h1)
  have tv : (ptOf (i 0).val (i 1).val h0 h1).val = 8 * ((i 0).val / 32) + (i 1).val / 256 := rfl
  match a with
  | ⟨0, _⟩ =>
    show win0_4.index _ (0 : Fin 2) * 32 ≤ (i 0).val ∧ (i 0).val < win0_4.index _ (0 : Fin 2) * 32 + 32
    rw [e0, tv]; omega
  | ⟨1, _⟩ =>
    show win0_4.index _ (1 : Fin 2) * 256 ≤ (i 1).val ∧ (i 1).val < win0_4.index _ (1 : Fin 2) * 256 + 256
    rw [e1, tv]; omega

/-- The last point of the row block that holds row `a`. -/
def lastOf (a : ℕ) (ha : a < 256) : Fin cfg0.N := ⟨8 * (a / 32) + 7, by have : cfg0.N = 64 := N_0; omega⟩

theorem lastOf_mod (a : ℕ) (ha : a < 256) : (lastOf a ha).val % 8 = 7 := by
  show (8 * (a / 32) + 7) % 8 = 7
  omega

theorem cover5 (i : S256x1.Idx) : ∃ t : Fin cfg0.N, (cfg0.win 5).flush t = true ∧ i ∈ ((cfg0.win 5).blk t).view.set := by
  have h0 : (i 0).val < 256 := (i 0).isLt
  have h1 : (i 1).val < 1 := (i 1).isLt
  refine ⟨lastOf (i 0).val h0, (flush0_5 _).mpr (lastOf_mod _ h0), (mem_blk5 _ i).mpr fun a => ?_⟩
  obtain ⟨-, -, -, -, -, -, -, -, -, -, e0, e1, -⟩ := idx_facts (lastOf (i 0).val h0)
  have tv : (lastOf (i 0).val h0).val = 8 * ((i 0).val / 32) + 7 := rfl
  match a with
  | ⟨0, _⟩ =>
    show win0_5.index _ (0 : Fin 2) * 32 ≤ (i 0).val ∧ (i 0).val < win0_5.index _ (0 : Fin 2) * 32 + 32
    rw [e0, tv]; omega
  | ⟨1, _⟩ =>
    show win0_5.index _ (1 : Fin 2) * 1 ≤ (i 1).val ∧ (i 1).val < win0_5.index _ (1 : Fin 2) * 1 + 1
    rw [e1]; omega

theorem cover6 (i : S256x1.Idx) : ∃ t : Fin cfg0.N, (cfg0.win 6).flush t = true ∧ i ∈ ((cfg0.win 6).blk t).view.set := by
  have h0 : (i 0).val < 256 := (i 0).isLt
  have h1 : (i 1).val < 1 := (i 1).isLt
  refine ⟨lastOf (i 0).val h0, (flush0_6 _).mpr (lastOf_mod _ h0), (mem_blk6 _ i).mpr fun a => ?_⟩
  obtain ⟨-, -, -, -, -, -, -, -, -, -, -, -, e0, e1, -⟩ := idx_facts (lastOf (i 0).val h0)
  have tv : (lastOf (i 0).val h0).val = 8 * ((i 0).val / 32) + 7 := rfl
  match a with
  | ⟨0, _⟩ =>
    show win0_6.index _ (0 : Fin 2) * 32 ≤ (i 0).val ∧ (i 0).val < win0_6.index _ (0 : Fin 2) * 32 + 32
    rw [e0, tv]; omega
  | ⟨1, _⟩ =>
    show win0_6.index _ (1 : Fin 2) * 1 ≤ (i 1).val ∧ (i 1).val < win0_6.index _ (1 : Fin 2) * 1 + 1
    rw [e1]; omega

theorem cover7 (i : S256x128.Idx) : ∃ t : Fin cfg0.N, (cfg0.win 7).flush t = true ∧ i ∈ ((cfg0.win 7).blk t).view.set := by
  have h0 : (i 0).val < 256 := (i 0).isLt
  have h1 : (i 1).val < 128 := (i 1).isLt
  refine ⟨lastOf (i 0).val h0, (flush0_7 _).mpr (lastOf_mod _ h0), (mem_blk7 _ i).mpr fun a => ?_⟩
  obtain ⟨-, -, -, -, -, -, -, -, -, -, -, -, -, -, e0, e1⟩ := idx_facts (lastOf (i 0).val h0)
  have tv : (lastOf (i 0).val h0).val = 8 * ((i 0).val / 32) + 7 := rfl
  match a with
  | ⟨0, _⟩ =>
    show win0_7.index _ (0 : Fin 2) * 32 ≤ (i 0).val ∧ (i 0).val < win0_7.index _ (0 : Fin 2) * 32 + 32
    rw [e0, tv]; omega
  | ⟨1, _⟩ =>
    show win0_7.index _ (1 : Fin 2) * 128 ≤ (i 1).val ∧ (i 1).val < win0_7.index _ (1 : Fin 2) * 128 + 128
    rw [e1]; omega

/-! ## The arrays after the run -/

theorem final4 : (dats m 0 c).arrAt 4 cfg0.N = G4 m c :=
  (dats m 0 c).arrAt_eq_of_cover 4 (G4 m c) (fun t _ => flushed4 m c t) cover4
theorem final5 : (dats m 0 c).arrAt 5 cfg0.N = G5 m c :=
  (dats m 0 c).arrAt_eq_of_cover 5 (G5 m c) (flushed5 m c) cover5
theorem final6 : (dats m 0 c).arrAt 6 cfg0.N = G6 m c :=
  (dats m 0 c).arrAt_eq_of_cover 6 (G6 m c) (flushed6 m c) cover6
theorem final7 : (dats m 0 c).arrAt 7 cfg0.N = G7 m c :=
  (dats m 0 c).arrAt_eq_of_cover 7 (G7 m c) (flushed7 m c) cover7

end Cert.KernelIdeal.Attn

end
-- ==== Proof.KernelRun.lean ====
/-
  The kernel's run, read: its first result is the context array the last tiles wrote, its second the weights the
  lines after the kernel compute from the score, maximum and sum arrays; the arguments are unchanged.
-/
import proofs.«103353_j63419487093403_2_alg».proof.Proof.KernelArrays

noncomputable section

open Idealize.ShloMosaic Idealize.ShloMosaic.TcCoe Idealize.SL.Sem

namespace Cert.KernelIdeal.Attn

open Cert.KernelIdeal Cert.KernelIdeal.Gen Idealize.ShloMosaic.ValueIdx Idealize.ShloMosaic.StreamingSoftmax Cert.Attn

variable (m : (ℓ : Loc nD τ sig) → Buf (Elt Ideal) ℓ) (ρ : Dev nD → PrngReg)

/-- What the lines after the kernel leave in the second result. -/
theorem tail_eq (c : Dev nD) :
    Pipeline.afterTail₀ cfgs (dats m) 0 (V0 m) [hostOps1] c main_v6 = tailArr (G4 m c) (G5 m c) (G6 m c) := by
  unfold Pipeline.afterTail₀
  show StableHlo.after hostOps1 _ (Proc.devRef .tc main_v6) = _
  after_results
  have e4 : Pipeline.withArrays (cfgs 0).spec c (V0 m c) (fun w => (dats m 0 c).arrAt w (cfgs 0).N) (Proc.tc.devRef main_v0_0)
      = G4 m c := (Pipeline.withArrays_arr spec0 launch0.win.arr_inj c _ _ 4).trans (final4 m c)
  have e5 : Pipeline.withArrays (cfgs 0).spec c (V0 m c) (fun w => (dats m 0 c).arrAt w (cfgs 0).N) (Proc.tc.devRef main_v0_1)
      = G5 m c := (Pipeline.withArrays_arr spec0 launch0.win.arr_inj c _ _ 5).trans (final5 m c)
  have e6 : Pipeline.withArrays (cfgs 0).spec c (V0 m c) (fun w => (dats m 0 c).arrAt w (cfgs 0).N) (Proc.tc.devRef main_v0_2)
      = G6 m c := (Pipeline.withArrays_arr spec0 launch0.win.arr_inj c _ _ 6).trans (final6 m c)
  rw [e4, e5, e6]
  rfl

theorem run : θ_run defs (onTc (τ := τ) (main (F := Ideal))) ⟨m, fun _ => 0, ρ⟩ fun r => ∀ c : Dev nD,
      r.2.mem ((c.tc : Thread nD τ).loc main_v0_3) = G7 m c
      ∧ r.2.mem ((c.tc : Thread nD τ).loc main_v6) = tailArr (G4 m c) (G5 m c) (G6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 7).trans (final7 m c),
      ((h c).2 main_v6 (by decide)).trans (tail_eq m c),
      ((h c).1 0).trans ((((dats m 0 c).arrAt_in 0 rfl _).trans ((A_eq m c 0).trans (V_main_arg0 m c)))),
      ((h c).1 1).trans ((((dats m 0 c).arrAt_in 1 rfl _).trans ((A_eq m c 1).trans (V_main_arg1 m c)))),
      ((h c).1 2).trans ((((dats m 0 c).arrAt_in 2 rfl _).trans ((A_eq m c 2).trans (V_main_arg2 m c)))),
      ((h c).1 3).trans ((((dats m 0 c).arrAt_in 3 rfl _).trans ((A_eq m c 3).trans (V_main_arg3 m c))))⟩)
    (run_main m ρ)

end Cert.KernelIdeal.Attn

end
-- ==== Proof.RefValue.lean ====
/-
  The reference program's two results, read entry by entry as the specification's functions: its weights are the
  softmax of the scores along the positions, and its context is the sum of the row's vectors times those weights.
-/
import proofs.«103353_j63419487093403_2_alg».proof.Proof.Spec
import proofs.«103353_j63419487093403_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Attn.Ref

open Idealize.ShloMosaic Idealize.ShloMosaic.ValueIdx
open Cert.ReferenceIdeal Cert.ReferenceIdeal.Read
open scoped BigOperators

variable (x0 : S256x2048x128.Idx → EReal) (x1 : S128x64.Idx → EReal) (x2 : S64x1.Idx → EReal) (x3 : S64.Idx → EReal)

/-- The hidden layer: the first product plus the bias, through tanh, is the specification's hidden unit. -/
theorem hid_at (b : Fin 256) (j : Fin 2048) (u : Fin 64) :
    val_main_v4 (F := Ideal) x0 x1 x3 (ix3 b j u) = Cert.Attn.hid x0 x1 x3 b.val j.val u := by
  rw [val_main_v4_apply, val_main_v3_apply, val_main_v0_apply, val_main_v2_apply, val_main_v1_apply]
  have e1 : ∀ k : Fin 128, lidx_main_v0 (ix3 b j u) k = ix3 b j k := fun k => funext fun a => Fin.ext (by
    match a with | ⟨0, _⟩ => rfl | ⟨1, _⟩ => rfl | ⟨2, _⟩ => rfl)
  have e2 : ∀ k : Fin 128, ridx_main_v0 (ix3 b j u) k = ix2 k u := fun k => funext fun a => Fin.ext (by
    match a with | ⟨0, _⟩ => rfl | ⟨1, _⟩ => rfl)
  have e3 : idx_main_v1 (idx_main_v2 (ix3 b j u)) = ix1 u := funext fun a => Fin.ext (by
    match a with | ⟨0, _⟩ => rfl)
  unfold Cert.Attn.hid
  simp only [e1, e2, e3, Ideal.hostUnary_tanh_def, Ideal.addf_def, Cert.Attn.X3_of_lt]

/-- The score: the second product is the specification's score. -/
theorem sc_at (b : Fin 256) (j : Fin 2048) :
    val_main_v5 (F := Ideal) x0 x1 x2 x3 (ix3 b j 0) = Cert.Attn.sc x0 x1 x2 x3 b.val j.val := by
  rw [val_main_v5_apply]
  have e1 : ∀ k : Fin 64, lidx_main_v5 (ix3 b j (0 : Fin 1)) k = ix3 b j k := fun k => funext fun a => Fin.ext (by
    match a with | ⟨0, _⟩ => rfl | ⟨1, _⟩ => rfl | ⟨2, _⟩ => rfl)
  have e2 : ∀ k : Fin 64, ridx_main_v5 (ix3 b j (0 : Fin 1)) k = ix2 k (0 : Fin 1) := fun k => funext fun a => Fin.ext (by
    match a with | ⟨0, _⟩ => rfl | ⟨1, _⟩ => rfl)
  unfold Cert.Attn.sc
  simp only [e1, e2, hid_at]

/-- The host's reduction with a maximum body along the middle axis of an `[a, b, c]` array, at row `p` and column
    `q`: the fold of `max` from the initial value's one element over the `b` entries. -/
theorem hostMidMax_apply {a b c : ℕ} {w : Shape} (x : FVec Ideal ⟨3, ![a, b, c]⟩ .f32) (init : w.Idx → EReal)
    (h' : (⟨3, ![a, b, c]⟩ : Shape).ReducesTo [1] ⟨2, ![a, c]⟩) (h : (⟨3, ![a, b, c]⟩ : Shape).Reduces [1] ⟨2, ![a, c]⟩)
    (hw : 0 < w.numel) (p : Fin a) (q : Fin c) :
    Host.reduce (FloatOps.maximumf (F := Ideal) (φ := .f32)) x init h' hw (ix2 p q)
      = (Finset.univ : Finset (Fin b)).fold max (init (Shape.Idx.first hw)) (fun k => x (ix3 p k q)) :=
  (Host.reduce_eq_fold_single (FloatOps.maximumf (F := Ideal) (φ := .f32)) x init h' h hw (ix2 p q)).trans
    (congrArg (fun f : Fin b → EReal => (Finset.univ : Finset (Fin b)).fold max (init (Shape.Idx.first hw)) f)
      (funext fun k => congrArg x (funext fun d => Fin.ext (by
        match d with
        | ⟨0, _⟩ => rfl
        | ⟨1, _⟩ => rfl
        | ⟨2, _⟩ => rfl))))

/-- The bit pattern of minus infinity denotes the least extended real. -/
theorem ofBits_negInf : Ideal.ofBits .f32 0xFF800000#32 = (⊥ : EReal) := by simp [Ideal.ofBits, Ideal.ieee]

/-- A fold of `max` from the least element over all of a finite type is the supremum. -/
theorem fold_max_bot_eq_sup {ι : Type*} [Fintype ι] (f : ι → EReal) :
    (Finset.univ : Finset ι).fold max (⊥ : EReal) f = Finset.univ.sup f := by
  unfold Finset.sup
  rfl

/-- The row's maximum: the reduction over the positions, then the maximum with minus infinity. -/
theorem rowMax_at (b : Fin 256) :
    val_main_v8 (F := Ideal) x0 x1 x2 x3 (ix2 b 0) = Cert.Attn.rowMax x0 x1 x2 x3 b.val := by
  rw [val_main_v8_apply, val_main_v7_apply, val_main_cst_0_apply]
  unfold val_main_v6
  rw [hostMidMax_apply (val_main_v5 (F := Ideal) x0 x1 x2 x3) (val_main_cst (F := Ideal)) _ (by decide) _ b 0]
  rw [val_main_cst_apply]
  simp only [Ideal.ofBits_def, Ideal.maximumf_def, ofBits_negInf, max_bot_left, sc_at]
  rw [fold_max_bot_eq_sup]
  rfl

/-- The shifted exponential of a score. -/
theorem exp_at (b : Fin 256) (j : Fin 2048) :
    val_main_v12 (F := Ideal) x0 x1 x2 x3 (ix3 b j 0)
      = Ideal.exp (Cert.Attn.sc x0 x1 x2 x3 b.val j.val - Cert.Attn.rowMax x0 x1 x2 x3 b.val) := by
  rw [val_main_v12_apply, val_main_v11_apply, val_main_v10_apply, val_main_v9_apply]
  have e : idx_main_v9 (idx_main_v10 (ix3 b j (0 : Fin 1))) = ix2 b (0 : Fin 1) := funext fun a => Fin.ext (by
    match a with | ⟨0, _⟩ => rfl | ⟨1, _⟩ => rfl)
  rw [e, sc_at, rowMax_at]
  simp only [Ideal.hostUnary_exp_def, Ideal.subf_def]

/-- The row's sum of shifted exponentials: the initial zero plus the sum over the positions. -/
theorem rowSum_at (b : Fin 256) :
    val_main_v13 (F := Ideal) x0 x1 x2 x3 (ix2 b 0) = Cert.Attn.rowSum x0 x1 x2 x3 b.val := by
  rw [val_main_v13_apply, val_main_cst_1_apply]
  have e : ∀ k : Fin 2048, idx_main_v13 (ix2 b (0 : Fin 1)) k = ix3 b k (0 : Fin 1) := fun k => funext fun a => Fin.ext (by
    match a with | ⟨0, _⟩ => rfl | ⟨1, _⟩ => rfl | ⟨2, _⟩ => rfl)
  unfold Cert.Attn.rowSum
  simp only [e, exp_at, Ideal.ofBits_def, Ideal.ofBits_zero_f32, zero_add]

/-- The weight of position `j` of row `b`. -/
theorem alpha_at (b : Fin 256) (j : Fin 2048) :
    val_main_v16 (F := Ideal) x0 x1 x2 x3 (ix3 b j 0) = Cert.Attn.alpha x0 x1 x2 x3 b.val j.val := by
  rw [val_main_v16_apply, val_main_v15_apply, val_main_v14_apply]
  have e : idx_main_v14 (idx_main_v15 (ix3 b j (0 : Fin 1))) = ix2 b (0 : Fin 1) := funext fun a => Fin.ext (by
    match a with | ⟨0, _⟩ => rfl | ⟨1, _⟩ => rfl)
  rw [e, exp_at, rowSum_at]
  unfold Cert.Attn.alpha
  simp only [Ideal.hostDivf_def]

/-- The reference's weights are the specification's. -/
theorem ref_alpha (i : S256x2048x1.Idx) :
    val_main_v16 (F := Ideal) x0 x1 x2 x3 i = Cert.Attn.alpha x0 x1 x2 x3 (i 0).val (i 1).val := by
  obtain ⟨b, j, u, rfl⟩ : ∃ (b : Fin 256) (j : Fin 2048) (u : Fin 1), i = ix3 b j u := ⟨i 0, i 1, i 2, eq_ix3 i⟩
  have hu : u = 0 := Subsingleton.elim _ _
  subst hu
  exact alpha_at x0 x1 x2 x3 b j

/-- The reference's context is the initial zero plus the sum of the row's vectors times the weights. -/
theorem ref_ctx (i : S256x128.Idx) :
    val_main_v19 (F := Ideal) x0 x1 x2 x3 i
      = Ideal.ofBits .f32 0x00000000#32 + Cert.Attn.ctxR x0 x1 x2 x3 (i 0).val (i 1).val := by
  obtain ⟨b, d, rfl⟩ : ∃ (b : Fin 256) (d : Fin 128), i = ix2 b d := ⟨i 0, i 1, eq_ix2 i⟩
  rw [val_main_v19_apply, val_main_cst_2_apply]
  have e : ∀ k : Fin 2048, idx_main_v19 (ix2 b d) k = ix3 b k d := fun k => funext fun a => Fin.ext (by
    match a with | ⟨0, _⟩ => rfl | ⟨1, _⟩ => rfl | ⟨2, _⟩ => rfl)
  have e17 : ∀ k : Fin 2048, idx_main_v17 (ix3 b k d) = ix3 b k (0 : Fin 1) := fun k => funext fun a => Fin.ext (by
    match a with | ⟨0, _⟩ => rfl | ⟨1, _⟩ => rfl | ⟨2, _⟩ => rfl)
  show _ = Ideal.ofBits .f32 0x00000000#32 + Cert.Attn.ctxR x0 x1 x2 x3 b.val d.val
  unfold Cert.Attn.ctxR
  simp only [e, val_main_v18_apply, val_main_v17_apply, e17, alpha_at, Ideal.ofBits_def, Ideal.mulf_def,
    Cert.Attn.X3_of_lt]

end Cert.Attn.Ref

end
-- ==== Proof.LibSumBlocks.lean ====
/-
  Cutting a finite sum into consecutive blocks of equal length, in any additive commutative monoid: a sum over the
  first `n · b` naturals is the sum over `n` blocks of `b` consecutive terms, and the same for a sum over
  `Fin (n · b)` of a function of the position.  What a contraction computed block by block (a reduction axis tiled
  over a grid or a loop) needs in order to meet the whole contraction.
-/
import Mathlib.Algebra.BigOperators.Fin
import Mathlib.Algebra.BigOperators.Intervals

namespace Cert.LibSumBlocks

open scoped BigOperators

/-- A sum over the first `n · b` naturals is the sum over `n` consecutive blocks of `b` terms: term `q` of block `s`
    is the term at position `b · s + q`. -/
theorem sum_range_blocks {M : Type*} [AddCommMonoid M] (g : ℕ → M) (b : ℕ) :
    ∀ n : ℕ, ∑ k ∈ Finset.range (n * b), g k = ∑ s ∈ Finset.range n, ∑ q ∈ Finset.range b, g (b * s + q)
  | 0 => by simp
  | n + 1 => by
    rw [Nat.succ_mul, Finset.sum_range_add, sum_range_blocks g b n, Finset.sum_range_succ, Nat.mul_comm n b]

/-- The same over `Fin N` with `N = n · b`, the blocks' terms indexed by `Fin b`. -/
theorem sum_fin_blocks {M : Type*} [AddCommMonoid M] (g : ℕ → M) (n b N : ℕ) (hN : N = n * b) :
    ∑ k : Fin N, g k.val = ∑ s ∈ Finset.range n, ∑ q : Fin b, g (b * s + q.val) := by
  subst hN
  rw [Fin.sum_univ_eq_sum_range g (n * b), sum_range_blocks g b n]
  exact Finset.sum_congr rfl fun s _ => (Fin.sum_univ_eq_sum_range (fun q => g (b * s + q)) b).symm

end Cert.LibSumBlocks
-- ==== Proof.AttnMath.lean ====
/-
  The streaming statistics of a row of scores, cut into 8 tiles of 256 positions, are the row's softmax statistics;
  and the two arrangements of the pooled context agree when the scores and the row's vectors are real numbers.
-/
import proofs.«103353_j63419487093403_2_alg».proof.Proof.Spec
import proofs.«103353_j63419487093403_2_alg».proof.Proof.LibStreamingSoftmax
import proofs.«103353_j63419487093403_2_alg».proof.Proof.LibStreamingWeighted
import proofs.«103353_j63419487093403_2_alg».proof.Proof.LibIsReal
import proofs.«103353_j63419487093403_2_alg».proof.Proof.LibSumBlocks

noncomputable section

namespace Cert.Attn

open Idealize.ShloMosaic Idealize.ShloMosaic.ValueIdx Idealize.ShloMosaic.StreamingSoftmax
open scoped BigOperators

variable (X : (⟨3, ![256, 2048, 128]⟩ : Shape).Idx → EReal) (W1 : (⟨2, ![128, 64]⟩ : Shape).Idx → EReal)
  (W2 : (⟨2, ![64, 1]⟩ : Shape).Idx → EReal) (bias : (⟨1, ![64]⟩ : Shape).Idx → EReal)

/-- The row's maximum is a real number when its scores are. -/
theorem rowMax_isReal (b : ℕ) (hs : ∀ j, IsReal (sc X W1 W2 bias b j)) : IsReal (rowMax X W1 W2 bias b) := by
  unfold rowMax
  exact IsReal.sup Finset.univ_nonempty fun j _ => hs j.val

/-- The row's sum of shifted exponentials is a real number, and it is not zero (the maximal score contributes 1). -/
theorem rowSum_isReal (b : ℕ) (hs : ∀ j, IsReal (sc X W1 W2 bias b j)) : IsReal (rowSum X W1 W2 bias b) := by
  obtain ⟨M, hM⟩ := rowMax_isReal X W1 W2 bias b hs
  unfold rowSum
  refine IsReal.sum Finset.univ fun j _ => ?_
  obtain ⟨r, hr⟩ := hs j.val
  rw [hr, hM, ← EReal.coe_sub, Ideal.exp_coe]
  exact IsReal.coe _

theorem rowSum_ne_zero (b : ℕ) (hs : ∀ j, IsReal (sc X W1 W2 bias b j)) : rowSum X W1 W2 bias b ≠ 0 := by
  obtain ⟨M, hM⟩ := rowMax_isReal X W1 W2 bias b hs
  -- each term is the real number `exp (score - M)`, which is positive; so is the finite sum
  have hterm : ∀ j : Fin 2048, Ideal.exp (sc X W1 W2 bias b j.val - rowMax X W1 W2 bias b)
      = ((Real.exp ((sc X W1 W2 bias b j.val).toReal - M) : ℝ) : EReal) := by
    intro j
    obtain ⟨r, hr⟩ := hs j.val
    rw [hr, hM, ← EReal.coe_sub, Ideal.exp_coe, EReal.toReal_coe]
  have hpos : 0 < ∑ j : Fin 2048, Real.exp ((sc X W1 W2 bias b j.val).toReal - M) :=
    Finset.sum_pos (fun j _ => Real.exp_pos _) Finset.univ_nonempty
  unfold rowSum
  rw [Finset.sum_congr rfl fun j _ => hterm j, ← coe_finset_sum]
  exact EReal.coe_ne_zero.mpr hpos.ne'

/-- The supremum over the 8 tiles of each tile's supremum is the row's maximum: position `j < 2048` is entry
    `j % 256` of tile `j / 256`, and entry `q` of tile `i < 8` is position `256 · i + q < 2048`. -/
theorem sup_tiles (b : ℕ) :
    ((Finset.range 8).sup fun i => Finset.univ.sup (tile X W1 W2 bias b i)) = rowMax X W1 W2 bias b := by
  unfold rowMax
  apply le_antisymm
  · refine Finset.sup_le fun i hi => Finset.sup_le fun q _ => ?_
    have hi' : i < 8 := Finset.mem_range.mp hi
    have hlt : 256 * i + q.val < 2048 := by have := q.isLt; omega
    have h := Finset.le_sup (f := fun j : Fin 2048 => sc X W1 W2 bias b j.val)
      (Finset.mem_univ (⟨256 * i + q.val, hlt⟩ : Fin 2048))
    exact h
  · refine Finset.sup_le fun j _ => ?_
    have hq : j.val % 256 < 256 := Nat.mod_lt _ (by norm_num)
    have hi : j.val / 256 ∈ Finset.range 8 := Finset.mem_range.mpr (by have := j.isLt; omega)
    have hj : tile X W1 W2 bias b (j.val / 256) ⟨j.val % 256, hq⟩ = sc X W1 W2 bias b j.val := by
      unfold tile
      simp only [Nat.div_add_mod]
    calc sc X W1 W2 bias b j.val = tile X W1 W2 bias b (j.val / 256) ⟨j.val % 256, hq⟩ := hj.symm
      _ ≤ Finset.univ.sup (tile X W1 W2 bias b (j.val / 256)) :=
          Finset.le_sup (f := tile X W1 W2 bias b (j.val / 256)) (b := ⟨j.val % 256, hq⟩) (Finset.mem_univ _)
      _ ≤ _ := Finset.le_sup (f := fun i => Finset.univ.sup (tile X W1 W2 bias b i)) (b := j.val / 256) hi

/-- After the 8 tiles the streaming state is the row's maximum and its sum of shifted exponentials. -/
theorem run_tiles (b : ℕ) (hs : ∀ j, IsReal (sc X W1 W2 bias b j)) :
    run (tile X W1 W2 bias b) 8 = (rowMax X W1 W2 bias b, rowSum X W1 W2 bias b) := by
  obtain ⟨a, ha, hrun⟩ := run_succ (tile X W1 W2 bias b) 7 ⟨0, (hs _).ne_bot⟩ (fun i _ j => (hs _).ne_top)
  have hM : rowMax X W1 W2 bias b = (a : EReal) := by rw [← sup_tiles]; exact ha
  have h8 : run (tile X W1 W2 bias b) 8
      = ((a : EReal), ∑ i ∈ Finset.range 8, ∑ q : Fin 256, Ideal.exp (tile X W1 W2 bias b i q - (a : EReal))) := hrun
  -- the sum over 8 blocks of 256 consecutive positions is the sum over the 2048 positions
  have hsum : ∑ i ∈ Finset.range 8, ∑ q : Fin 256, Ideal.exp (tile X W1 W2 bias b i q - (a : EReal))
      = rowSum X W1 W2 bias b := by
    unfold rowSum
    rw [hM]
    exact (Cert.LibSumBlocks.sum_fin_blocks (fun j => Ideal.exp (sc X W1 W2 bias b j - (a : EReal))) 8 256 2048
      (by norm_num)).symm
  rw [h8, hsum, hM]

/-- After the 8 tiles the weighted accumulator of lane `d` is the sum over the row of vector entry times shifted
    exponential. -/
theorem runW_tiles (b d : ℕ) (hs : ∀ j, IsReal (sc X W1 W2 bias b j)) (hX : ∀ j, IsReal (X3 X b j d)) :
    runW (tile X W1 W2 bias b) (wts X b d) 8
      = (rowMax X W1 W2 bias b,
          ∑ j : Fin 2048, X3 X b j.val d * Ideal.exp (sc X W1 W2 bias b j.val - rowMax X W1 W2 bias b)) := by
  obtain ⟨a, ha, hrun⟩ := runW_succ (tile X W1 W2 bias b) (wts X b d) 7 ⟨0, (hs _).ne_bot⟩
    (fun i _ j => (hs _).ne_top) (fun i _ j => hX _)
  have hM : rowMax X W1 W2 bias b = (a : EReal) := by rw [← sup_tiles]; exact ha
  have h8 : runW (tile X W1 W2 bias b) (wts X b d) 8
      = ((a : EReal), ∑ i ∈ Finset.range 8, ∑ q : Fin 256,
          wts X b d i q * Ideal.exp (tile X W1 W2 bias b i q - (a : EReal))) := hrun
  -- the sum over 8 blocks of 256 consecutive positions is the sum over the 2048 positions
  have hsum : ∑ i ∈ Finset.range 8, ∑ q : Fin 256, wts X b d i q * Ideal.exp (tile X W1 W2 bias b i q - (a : EReal))
      = ∑ j : Fin 2048, X3 X b j.val d * Ideal.exp (sc X W1 W2 bias b j.val - (a : EReal)) :=
    (Cert.LibSumBlocks.sum_fin_blocks (fun j => X3 X b j d * Ideal.exp (sc X W1 W2 bias b j - (a : EReal))) 8 256 2048
      (by norm_num)).symm
  rw [h8, hsum, hM]

/-- Over the reals, a common right factor moves out of a finite sum of products. -/
theorem sum_mul_mul_real {n : ℕ} (c e : Fin n → ℝ) (r : ℝ) :
    ∑ j, c j * (e j * r) = (∑ j, c j * e j) * r := by
  rw [Finset.sum_mul]
  exact Finset.sum_congr rfl fun j _ => (mul_assoc _ _ _).symm

/-- Dividing the weighted sum once by the normaliser, or each weight by it before summing, is the same real number. -/
theorem ctxR_eq_ctxK (b d : ℕ) (hs : ∀ j, IsReal (sc X W1 W2 bias b j)) (hX : ∀ j, IsReal (X3 X b j d)) :
    ctxR X W1 W2 bias b d = ctxK X W1 W2 bias b d := by
  obtain ⟨M, hM⟩ := rowMax_isReal X W1 W2 bias b hs
  obtain ⟨L, hL⟩ := rowSum_isReal X W1 W2 bias b hs
  have hL0 : L ≠ 0 := by
    intro h
    refine rowSum_ne_zero X W1 W2 bias b hs ?_
    rw [hL, h, EReal.coe_zero]
  -- both arrangements are coercions of real numbers: with `c j` the vector entry, `e j = exp (score j - M)` and
  -- `r = 1 / L`, the one is `∑ j, c j * (e j * r)` and the other `(∑ j, c j * e j) * r`
  have hR : ctxR X W1 W2 bias b d = ((∑ j : Fin 2048, (X3 X b j.val d).toReal
      * (Real.exp ((sc X W1 W2 bias b j.val).toReal - M) * (1 / L)) : ℝ) : EReal) := by
    unfold ctxR alpha
    rw [coe_finset_sum]
    refine Finset.sum_congr rfl fun j _ => ?_
    obtain ⟨c, hc⟩ := hX j.val
    obtain ⟨r, hr⟩ := hs j.val
    rw [hL, Ideal.div_coe hL0, hc, hr, hM, EReal.toReal_coe, EReal.toReal_coe, ← EReal.coe_sub, Ideal.exp_coe,
      ← EReal.coe_mul, ← EReal.coe_mul]
  have hS : ∑ j : Fin 2048, X3 X b j.val d * Ideal.exp (sc X W1 W2 bias b j.val - rowMax X W1 W2 bias b)
      = ((∑ j : Fin 2048, (X3 X b j.val d).toReal * Real.exp ((sc X W1 W2 bias b j.val).toReal - M) : ℝ) : EReal) := by
    rw [coe_finset_sum]
    refine Finset.sum_congr rfl fun j _ => ?_
    obtain ⟨c, hc⟩ := hX j.val
    obtain ⟨r, hr⟩ := hs j.val
    rw [hc, hr, hM, EReal.toReal_coe, EReal.toReal_coe, ← EReal.coe_sub, Ideal.exp_coe, ← EReal.coe_mul]
  have hK : ctxK X W1 W2 bias b d = (((∑ j : Fin 2048, (X3 X b j.val d).toReal
      * Real.exp ((sc X W1 W2 bias b j.val).toReal - M)) * (1 / L) : ℝ) : EReal) := by
    unfold ctxK
    rw [hS, hL, Ideal.div_coe hL0, ← EReal.coe_mul]
  rw [hR, hK, sum_mul_mul_real]

end Cert.Attn

end
-- ==== Proof.Finite.lean ====
/-
  From the precondition "every float input is finite" to "every entry of every argument is a real number", and on
  to the specification: every score, and every entry of the input read at natural coordinates, is a real number.
-/
import proofs.«103353_j63419487093403_2_alg».proof.Proof.Spec
import proofs.«103353_j63419487093403_2_alg».proof.Proof.LibIsReal
import proofs.«103353_j63419487093403_2_alg».proof.Pre_finite_inputs
import proofs.«103353_j63419487093403_2_alg».proof.Proof.Gen.Pre_finite_inputs
import Idealize.ShloMosaic.Lib.ValueIdx
import Idealize.ShloMosaic.Lib.ReduceAll
import Idealize.ShloMosaic.PureOps.Ideal.Laws

noncomputable section

namespace Cert.Attn

open Idealize.ShloMosaic Idealize.ShloMosaic.ValueIdx
open scoped BigOperators

/-- A one-bit word made from a Boolean is 1 exactly when the Boolean is true. -/
theorem ofBool_eq_one_iff (c : Bool) : BitVec.ofBool c = 1#1 ↔ c = true := by cases c <;> decide

/-- The bit pattern of plus infinity denotes the greatest extended real. -/
theorem ofBits_posInf : Ideal.ofBits .f32 0x7F800000#32 = (⊤ : EReal) := by simp [Ideal.ofBits, Ideal.ieee]

/-- An entry whose absolute value compares below plus infinity is a real number. -/
theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : IsReal x := by
  rw [Ideal.cmpf_def, Ideal.hostAbsf_def, Ideal.absf_def, Ideal.ofBits_def, ofBits_posInf] at h
  unfold Ideal.cmp at h
  rw [ofBool_eq_one_iff, decide_eq_true_eq] at h
  exact isReal_of_abs_lt_top h

/-- "All entries compare below plus infinity in absolute value", reduced by `and` from true over every axis into the
    one-element result, equal to 1: every entry is a real number. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) (i : s.Idx) : IsReal (x i) := by
  haveI : Subsingleton Cert.Pre_finite_inputs.S_.Idx := ⟨fun a b => funext fun d => d.elim0⟩
  exact isReal_of_cmp (x i) (Host.reduce_andi_all _ _ hr hu ix0 e i)

/-- The precondition, read at the exact instance: every entry of the four arguments is a real number. -/
theorem real_of_pre [Cert.Pre_finite_inputs.Facts]
    (x0 : FVec Ideal Cert.Pre_finite_inputs.S256x2048x128 .f32) (x1 : FVec Ideal Cert.Pre_finite_inputs.S128x64 .f32)
    (x2 : FVec Ideal Cert.Pre_finite_inputs.S64x1 .f32) (x3 : FVec Ideal Cert.Pre_finite_inputs.S64 .f32)
    (h : Cert.Pre_finite_inputs.fn (F := Ideal) x0 x1 x2 x3 = fun _ => 1#1) :
    (∀ i, IsReal (x0 i)) ∧ (∀ i, IsReal (x1 i)) ∧ (∀ i, IsReal (x2 i)) ∧ (∀ i, IsReal (x3 i)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨isReal_of_all x0 _ _ _ h1, isReal_of_all x1 _ _ _ h2, isReal_of_all x2 _ _ _ h3, isReal_of_all x3 _ _ _ h4⟩

section
variable (X : (⟨3, ![256, 2048, 128]⟩ : Shape).Idx → EReal) (W1 : (⟨2, ![128, 64]⟩ : Shape).Idx → EReal)
  (W2 : (⟨2, ![64, 1]⟩ : Shape).Idx → EReal) (bias : (⟨1, ![64]⟩ : Shape).Idx → EReal)

/-- The input read at natural coordinates is real everywhere (zero outside its extents). -/
theorem X3_isReal (hX : ∀ i, IsReal (X i)) (b j d : ℕ) : IsReal (X3 X b j d) := by
  unfold X3
  split
  · exact hX _
  · exact IsReal.zero

/-- Every score is a real number when the arguments' entries are. -/
theorem sc_isReal (hX : ∀ i, IsReal (X i)) (h1 : ∀ i, IsReal (W1 i)) (h2 : ∀ i, IsReal (W2 i)) (h3 : ∀ i, IsReal (bias i))
    (b j : ℕ) : IsReal (sc X W1 W2 bias b j) := by
  unfold sc
  refine IsReal.sum_mul (fun u => ?_) (fun u => h2 _)
  unfold hid
  obtain ⟨r, hr⟩ : IsReal ((∑ d : Fin 128, X3 X b j d.val * W1 (ix2 d u)) + bias (ix1 u)) :=
    IsReal.add (IsReal.sum_mul (fun d => X3_isReal X hX b j d.val) (fun d => h1 _)) (h3 _)
  rw [hr, Ideal.tanh_coe]
  exact IsReal.coe _

end

end Cert.Attn

end
-- ==== Proof.lean ====
/-
  Additive-attention pooling: a kernel that streams each row's 2048 positions in 8 tiles of 256, keeping a running
  maximum, a running sum of exponentials and a running weighted sum of the row's vectors (each rescaled whenever the
  maximum moves), against a reference that takes the softmax of the whole row at once.

  On the extended reals, with every input entry a real number, the two agree entry by entry:
  * the scores are the same sums of the same products on both sides (a matrix product, a bias, tanh, a second
    contraction), whatever the tiling;
  * after a row's 8 tiles the streaming maximum is the row's maximum and the streaming sum is the row's sum of
    exponentials shifted by it, so the weights `exp (score − max) / sum` computed after the kernel are the softmax;
  * the streaming weighted sum is the sum of vector entry times shifted exponential, and dividing it once by the sum
    equals summing the vectors times the softmax weights, because all the numbers involved are real and the sum is
    not zero.
  The kernel's and the reference's programs are run by the generated frame and run modules; the idealization rewrote
  nothing, so the preservation claim is trivial.
-/
import proofs.«103353_j63419487093403_2_alg».proof.Defs
import proofs.«103353_j63419487093403_2_alg».proof.Proof.Gen.Kernel
import proofs.«103353_j63419487093403_2_alg».proof.Proof.Gen.Kernel.Skeleton
import proofs.«103353_j63419487093403_2_alg».proof.Proof.Gen.Kernel.Launch
import proofs.«103353_j63419487093403_2_alg».proof.Proof.Gen.Kernel.Points
import proofs.«103353_j63419487093403_2_alg».proof.Proof.Gen.Kernel.Frame
import proofs.«103353_j63419487093403_2_alg».proof.Proof.Gen.KernelIdeal
import proofs.«103353_j63419487093403_2_alg».proof.Proof.Gen.KernelIdeal.Skeleton
import proofs.«103353_j63419487093403_2_alg».proof.Proof.Gen.KernelIdeal.Launch
import proofs.«103353_j63419487093403_2_alg».proof.Proof.Gen.KernelIdeal.Points
import proofs.«103353_j63419487093403_2_alg».proof.Proof.Gen.KernelIdeal.Frame
import proofs.«103353_j63419487093403_2_alg».proof.Proof.Gen.ReferenceIdeal
import proofs.«103353_j63419487093403_2_alg».proof.Proof.Gen.ReferenceIdeal.Run
import proofs.«103353_j63419487093403_2_alg».proof.Proof.Gen.ReferenceIdeal.Read
import proofs.«103353_j63419487093403_2_alg».proof.Proof.Gen.Pre_finite_inputs
import proofs.«103353_j63419487093403_2_alg».proof.Proof.KernelRun
import proofs.«103353_j63419487093403_2_alg».proof.Proof.RefValue
import proofs.«103353_j63419487093403_2_alg».proof.Proof.AttnMath
import proofs.«103353_j63419487093403_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the context at `ctxArr` and the weights at `alphaArr` of the arguments. -/
theorem algebraic : Cert.algebraic_KernelIdeal_ReferenceIdeal := by
  intro m ρ m' ρ' hpre hagree
  have hreal := fun c : Dev Cert.KernelIdeal.nD => Cert.Attn.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (hpre c)
  have hs : ∀ (c : Dev Cert.KernelIdeal.nD) (b j : ℕ), IsReal (Cert.Attn.sc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) b j) := fun c b j =>
    Cert.Attn.sc_isReal _ _ _ _ (hreal c).1 (hreal c).2.1 (hreal c).2.2.1 (hreal c).2.2.2 b j
  have hX : ∀ (c : Dev Cert.KernelIdeal.nD) (b j d : ℕ), IsReal (Cert.Attn.X3 (m ((c.tc : Thread Cert.KernelIdeal.nD Cert.KernelIdeal.τ).loc Cert.KernelIdeal.main_arg0)) b j d) := fun c b j d =>
    Cert.Attn.X3_isReal _ (hreal c).1 b j d
  refine ⟨fun c => Cert.Attn.ctxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.Attn.alphaArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Attn.run m ρ)
    obtain ⟨h7, h6, hargs⟩ := h c
    refine ⟨h7.trans ?_, h6.trans ?_, hargs⟩
    · funext i
      show Ideal.div (StreamingSoftmax.runW (Cert.Attn.tile (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0).val) (Cert.Attn.wts (m ((c.tc : Thread Cert.KernelIdeal.nD Cert.KernelIdeal.τ).loc Cert.KernelIdeal.main_arg0)) (i 0).val (i 1).val) 8).2
          (StreamingSoftmax.run (Cert.Attn.tile (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0).val) 8).2 = Cert.Attn.ctxK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0).val (i 1).val
      rw [Cert.Attn.runW_tiles _ _ _ _ _ _ (hs c _) (fun j => hX c _ j _), Cert.Attn.run_tiles _ _ _ _ _ (hs c _)]
      rfl
    · funext i
      obtain ⟨b, j, u, rfl⟩ : ∃ (b : Fin 256) (j : Fin 2048) (u : Fin 1), i = ix3 b j u := ⟨i 0, i 1, i 2, eq_ix3 i⟩
      rw [Cert.KernelIdeal.Attn.tailArr_apply]
      show Ideal.div (Ideal.exp (Cert.Attn.sc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) b.val j.val - (StreamingSoftmax.run (Cert.Attn.tile (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) b.val) 8).1))
          (StreamingSoftmax.run (Cert.Attn.tile (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) b.val) 8).2 = Cert.Attn.alpha (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) b.val j.val
      rw [Cert.Attn.run_tiles _ _ _ _ _ (hs c _)]
      rfl
  · refine (θ_run Cert.ReferenceIdeal.defs _ _).mono (fun r h c => ?_) (Cert.ReferenceIdeal.Value.run (F := Ideal) m' ρ')
    obtain ⟨h19, h16, hargs⟩ := h c
    refine ⟨h19.trans ?_, h16.trans ?_, hargs⟩
    · rw [(hagree c).1, (hagree c).2.1, (hagree c).2.2.1, (hagree c).2.2.2]
      refine (Cert.ReferenceIdeal.Read.val_main_v19_eq _ _ _ _).trans ?_
      funext i
      rw [Cert.Attn.Ref.ref_ctx, Ideal.ofBits_zero_f32, zero_add,
        Cert.Attn.ctxR_eq_ctxK _ _ _ _ _ _ (hs c _) (fun j => hX c _ j _)]
      rfl
    · rw [(hagree c).1, (hagree c).2.1, (hagree c).2.2.1, (hagree c).2.2.2]
      refine (Cert.ReferenceIdeal.Read.val_main_v16_eq _ _ _ _).trans ?_
      funext i
      rw [Cert.Attn.Ref.ref_alpha]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
